-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S64 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg7
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x1 : Shape := ⟨2, ![10000, 1]⟩
abbrev S1x16 : Shape := ⟨2, ![1, 16]⟩
abbrev S100000x16 : Shape := ⟨2, ![100000, 16]⟩
abbrev S10000x16 : Shape := ⟨2, ![10000, 16]⟩
abbrev S10000 : Shape := ⟨1, ![10000]⟩

abbrev nBuf : Space → Nat
  | .hbm => 131
  | .vmem => 34
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000, .f32⟩
  | 60 => ⟨S100000x1, .f32⟩
  | 61 => ⟨S1x64, .f32⟩
  | 62 => ⟨S100000x64, .f32⟩
  | 63 => ⟨S100000x64, .f32⟩
  | 64 => ⟨S_, .f32⟩
  | 65 => ⟨S1600000, .f32⟩
  | 66 => ⟨S_, .f32⟩
  | 67 => ⟨S100000, .f32⟩
  | 68 => ⟨S1600000x1, .i32⟩
  | 69 => ⟨S100000, .f32⟩
  | 70 => ⟨S_, .f32⟩
  | 71 => ⟨S100000, .f32⟩
  | 72 => ⟨S100000, .f32⟩
  | 73 => ⟨S100000, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S100000, .f32⟩
  | 110 => ⟨S100000x1, .f32⟩
  | 111 => ⟨S1x64, .f32⟩
  | 112 => ⟨S100000x64, .f32⟩
  | 113 => ⟨S_, .f32⟩
  | 114 => ⟨S100000, .f32⟩
  | 115 => ⟨S_, .f32⟩
  | 116 => ⟨S100000, .f32⟩
  | 117 => ⟨S100000x1, .i32⟩
  | 118 => ⟨S100000, .f32⟩
  | 119 => ⟨S_, .f32⟩
  | 120 => ⟨S100000x64, .f32⟩
  | 121 => ⟨S100000x1, .i32⟩
  | 122 => ⟨S100000x64, .f32⟩
  | 123 => ⟨S_, .f32⟩
  | 124 => ⟨S100000, .f32⟩
  | 125 => ⟨S100000, .f32⟩
  | 126 => ⟨S100000x1, .f32⟩
  | 127 => ⟨S100000x64, .f32⟩
  | _ => ⟨S100000x128, .f32⟩

abbrev hbmTy0_1 (i : Nat) : BufTy := match i % 128 with
  | 0 => ⟨S100000x64, .f32⟩
  | 1 => ⟨S1x16, .f32⟩
  | 2 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x16, .f32⟩
  | .local _ .vmem, ⟨31, _⟩ => ⟨S1x16, .f32⟩
  | .local _ .vmem, ⟨32, _⟩ => ⟨S10000x16, .f32⟩
  | .local _ .vmem, ⟨33, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_c_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_15 : Ref sig .tc := ⟨.hbm, 93, rfl⟩
abbrev main_v67 : Ref sig .tc := ⟨.hbm, 94, rfl⟩
abbrev main_v68 : Ref sig .tc := ⟨.hbm, 95, rfl⟩
abbrev main_c_16 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_20 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  dot_S10000x128_S128x64_S10000x64_1_0_0_1_n_n_wf : DotDims.WF S10000x128 S128x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S100000_S100000x1_S100000_n_0_0_1_wf : ScatterDims.WF S100000 S100000x1 S100000 [] [0] [0] 1
  scatter_S100000x64_S100000x1_S100000x64_1_0_0_1_wf : ScatterDims.WF S100000x64 S100000x1 S100000x64 [1] [0] [0] 1
  dot_S10000x64_S64x16_S10000x16_1_0_0_1_n_n_wf : DotDims.WF S10000x64 S64x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x16.size a ≤ S100000x16.size a
  hwx4_3 : ∀ i : grid4.Coords, EltTy.bits .f32 = 32 ∨ (Rect.block (s := S100000x16) S10000x16.size (cc4_transform_3 i) (hinb4_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def scatter_S100000x64_S100000x1_S100000x64_1_0_0_1 : ScatterDims S100000x64 S100000x1 S100000x64 where
  updateWindowDims := [1]
  insertedWindowDims := [0]
  scatterDimsToOperandDims := [0]
  indexVectorDim := 1
  wf := scatter_S100000x64_S100000x1_S100000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v95) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S10000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x16, .f32⟩
  | 8 => ⟨S16, .f32⟩
  | 9 => ⟨S1x1600000, .i32⟩
  | 10 => ⟨S1600000, .i32⟩
  | 11 => ⟨S1x1600000, .i32⟩
  | 12 => ⟨S1600000, .i32⟩
  | 13 => ⟨S100000x64, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .f32⟩
  | 72 => ⟨S1600000, .f32⟩
  | 73 => ⟨S_, .f32⟩
  | 74 => ⟨S100000, .f32⟩
  | 75 => ⟨S1600000x1, .i32⟩
  | 76 => ⟨S100000, .f32⟩
  | 77 => ⟨S_, .f32⟩
  | 78 => ⟨S100000, .f32⟩
  | 79 => ⟨S100000, .f32⟩
  | 80 => ⟨S100000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x64, .f32⟩
  | 109 => ⟨S1600000x1, .f32⟩
  | 110 => ⟨S1600000x64, .f32⟩
  | 111 => ⟨S1600000x64, .f32⟩
  | 112 => ⟨S_, .f32⟩
  | 113 => ⟨S100000x64, .f32⟩
  | 114 => ⟨S1600000x1, .i32⟩
  | 115 => ⟨S100000x64, .f32⟩
  | 116 => ⟨S100000, .f32⟩
  | 117 => ⟨S100000x1, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000x1, .i32⟩
  | 4 => ⟨S100000, .f32⟩
  | 5 => ⟨S_, .f32⟩
  | 6 => ⟨S100000x64, .f32⟩
  | 7 => ⟨S100000x1, .i32⟩
  | 8 => ⟨S100000x64, .f32⟩
  | 9 => ⟨S_, .f32⟩
  | 10 => ⟨S100000, .f32⟩
  | 11 => ⟨S100000, .f32⟩
  | 12 => ⟨S100000x1, .f32⟩
  | 13 => ⟨S100000x64, .f32⟩
  | 14 => ⟨S100000x64, .f32⟩
  | 15 => ⟨S100000x16, .f32⟩
  | 16 => ⟨S1x16, .f32⟩
  | 17 => ⟨S100000x16, .f32⟩
  | 18 => ⟨S100000x16, .f32⟩
  | 19 => ⟨S_, .f32⟩
  | 20 => ⟨S100000, .f32⟩
  | 21 => ⟨S_, .f32⟩
  | 22 => ⟨S100000, .f32⟩
  | 23 => ⟨S100000, .f32⟩
  | 24 => ⟨S100000x1, .f32⟩
  | 25 => ⟨S100000x16, .f32⟩
  | 26 => ⟨S100000x16, .f32⟩
  | 27 => ⟨S100000x16, .f32⟩
  | 28 => ⟨S_, .f32⟩
  | 29 => ⟨S100000, .f32⟩
  | 30 => ⟨S100000x1, .f32⟩
  | 31 => ⟨S100000x1, .f32⟩
  | 32 => ⟨S100000x16, .f32⟩
  | 33 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_11 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_c_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call1_cst : Ref sig .tc := ⟨.hbm, 124, rfl⟩
abbrev main_call1_v0 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_cst_19 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_call2_cst : Ref sig .tc := ⟨.hbm, 147, rfl⟩
abbrev main_call2_v0 : Ref sig .tc := ⟨.hbm, 148, rfl⟩
abbrev main_call2_cst_0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_cst_1 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_v110 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S100000_S100000x1_S100000_n_0_0_1_wf : ScatterDims.WF S100000 S100000x1 S100000 [] [0] [0] 1
  scatter_S100000x64_S100000x1_S100000x64_1_0_0_1_wf : ScatterDims.WF S100000x64 S100000x1 S100000x64 [1] [0] [0] 1
  dot_S100000x64_S64x16_S100000x16_1_0_0_1_n_n_wf : DotDims.WF S100000x64 S64x16 S100000x16 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def scatter_S100000x64_S100000x1_S100000x64_1_0_0_1 : ScatterDims S100000x64 S100000x1 S100000x64 where
  updateWindowDims := [1]
  insertedWindowDims := [0]
  scatterDimsToOperandDims := [0]
  indexVectorDim := 1
  wf := scatter_S100000x64_S100000x1_S100000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.LogSoftmaxSpec.lean ====
/-
  The row-wise log-softmax of a [100000, 16] array as the reference spells it: each row's maximum (a fold of `max`
  from −∞, joined with −∞ once more), the row shifted by it, and the shifted row minus the logarithm of the sum of
  its exponentials.  Stated once so that both programs' last stage can be named by one term.
-/
import proofs.«140760_j48129403519136_1_alg».proof.Proof.Gen.ReferenceIdeal
import Idealize.ShloMosaic.PureOps.Ideal

noncomputable section

namespace Cert.Spec

open Idealize.ShloMosaic Cert.ReferenceIdeal

/-- Each row's largest entry. -/
def rowMax (z : FVec Ideal S100000x16 .f32) : FVec Ideal S100000 .f32 :=
  maximumf (F := Ideal)
    (broadcastInDim S100000 ![] Gen.bcast_S_S100000 (constant (F := Ideal) S_ .f32 0xFF800000#32))
    (Host.reduce (FloatOps.maximumf (F := Ideal)) z (constant (F := Ideal) S_ .f32 0xFF800000#32) Gen.reducesTo_S100000x16_S100000_d1 Gen.h_S_)

/-- Each row minus its largest entry. -/
def shifted (z : FVec Ideal S100000x16 .f32) : FVec Ideal S100000x16 .f32 :=
  subf (F := Ideal) z
    (broadcastInDim S100000x16 ![0, 1] Gen.bcast_S100000x1_S100000x16_0_1
      (broadcastInDim S100000x1 ![0] Gen.bcast_S100000_S100000x1_0 (rowMax z)))

/-- The shifted row minus the logarithm of the sum of its exponentials. -/
def logSoftmax (z : FVec Ideal S100000x16 .f32) : FVec Ideal S100000x16 .f32 :=
  subf (F := Ideal) (shifted z)
    (broadcastInDim S100000x16 ![0, 1] Gen.bcast_S100000x1_S100000x16_0_1
      (Host.log (F := Ideal)
        (broadcastInDim S100000x1 ![0] Gen.bcast_S100000_S100000x1_0
          (Host.reduceAdd (F := Ideal) (Host.exp (F := Ideal) (shifted z)) (constant (F := Ideal) S_ .f32 0x00000000#32)
            Gen.reducesTo_S100000x16_S100000_d1 Gen.h_S_))))

end Cert.Spec

end
-- ==== Proof.ModelSpec.lean ====
/-
  The network both programs compute, as one term of the argument arrays over the extended reals.
  A graph convolution layer on node features h [100000, 64] with edge list (s, d):
    dinv(d)   = rsqrt (in-degree + 1)                       (a scatter-add of ones along d, plus one)
    agg(h)    = scatter-add along d of h[s] · (dinv[s] · dinv[d])
    layer     = max ((agg h + h · dinv²) + b, 0)
  (negative indices wrap by the extent before a gather), twice, each after a matrix product; then the mean over the
  groups of `dict_node` (sum / max (count, 1)), a last matrix product plus bias, and the row-wise log-softmax.
  Each definition spells the host operations in the order the programs apply them, so that either program's fold
  over a stretch of host operations is one of these terms by unfolding.
-/
import proofs.«140760_j48129403519136_1_alg».proof.Proof.Gen.ReferenceIdeal
import proofs.«140760_j48129403519136_1_alg».proof.Proof.LogSoftmaxSpec
import Idealize.ShloMosaic.PureOps.Ideal

noncomputable section

namespace Cert.Spec

open Idealize.ShloMosaic Cert.ReferenceIdeal

/-- Row 0 of the edge list: the source node of every edge. -/
def srcOf (e : IVec S2x1600000 32) : IVec S1600000 32 :=
  shapeCast _ (extractStridedSlice S1x1600000 ![0, 0] e Gen.slices_S2x1600000_S1x1600000_0_0) Gen.shapeCasts_S1x1600000_S1600000

/-- Row 1 of the edge list: the target node of every edge. -/
def dstOf (e : IVec S2x1600000 32) : IVec S1600000 32 :=
  shapeCast _ (extractStridedSlice S1x1600000 ![1, 0] e Gen.slices_S2x1600000_S1x1600000_1_0) Gen.shapeCasts_S1x1600000_S1600000

/-- A negative node index counts from the end: it is raised by the number of nodes. -/
def wrap (i : IVec S1600000 32) : IVec S1600000 32 :=
  select (cmpi .slt i (broadcastInDim S1600000 ![] Gen.bcast_S_S1600000 (constantI S_ 32 0#32)))
    (addi i (broadcastInDim S1600000 ![] Gen.bcast_S_S1600000 (constantI S_ 32 100000#32))) i

/-- An index vector as the one-column array a gather or scatter takes. -/
def col (i : IVec S1600000 32) : IVec S1600000x1 32 :=
  broadcastInDim S1600000x1 ![0] Gen.bcast_S1600000_S1600000x1_0 i

/-- rsqrt (in-degree + 1) of every node. -/
def dinv (d : IVec S1600000 32) : FVec Ideal S100000 .f32 :=
  Host.rsqrt (F := Ideal)
    (addf (F := Ideal)
      (Host.scatterAdd (F := Ideal) scatter_S100000_S1600000x1_S1600000_n_0_0_1
        (broadcastInDim S100000 ![] Gen.bcast_S_S100000 (constant (F := Ideal) S_ .f32 0x00000000#32))
        (col d)
        (broadcastInDim S1600000 ![] Gen.bcast_S_S1600000 (constant (F := Ideal) S_ .f32 0x3F800000#32)))
      (broadcastInDim S100000 ![] Gen.bcast_S_S100000 (constant (F := Ideal) S_ .f32 0x3F800000#32)))

/-- The edge weight dinv[s] · dinv[d]. -/
def edgeW (s d : IVec S1600000 32) : FVec Ideal S1600000 .f32 :=
  mulf (F := Ideal)
    (Host.gather gather_S100000_S1600000x1_S1600000_n_0_n_n_0_1_1 (dinv d) (col (wrap s)))
    (Host.gather gather_S100000_S1600000x1_S1600000_n_0_n_n_0_1_1 (dinv d) (col (wrap d)))

/-- The neighbours' features, weighted and summed into each target node. -/
def agg (h : FVec Ideal S100000x64 .f32) (s d : IVec S1600000 32) : FVec Ideal S100000x64 .f32 :=
  Host.scatterAdd (F := Ideal) scatter_S100000x64_S1600000x1_S1600000x64_1_0_0_1
    (broadcastInDim S100000x64 ![] Gen.bcast_S_S100000x64 (constant (F := Ideal) S_ .f32 0x00000000#32))
    (col d)
    (mulf (F := Ideal)
      (Host.gather gather_S100000x64_S1600000x1_S1600000x64_1_0_n_n_0_1_164 h (col (wrap s)))
      (broadcastInDim S1600000x64 ![0, 1] Gen.bcast_S1600000x1_S1600000x64_0_1
        (broadcastInDim S1600000x1 ![0] Gen.bcast_S1600000_S1600000x1_0 (edgeW s d))))

/-- dinv² as a column [100000, 1]. -/
def selfCol (d : IVec S1600000 32) : FVec Ideal S100000x1 .f32 :=
  broadcastInDim S100000x1 ![0] Gen.bcast_S100000_S100000x1_0 (mulf (F := Ideal) (dinv d) (dinv d))

/-- A bias vector as a row [1, 64]. -/
def biasRow (b : FVec Ideal S64 .f32) : FVec Ideal S1x64 .f32 :=
  broadcastInDim S1x64 ![1] Gen.bcast_S64_S1x64_1 b

/-- max ((agg + h · dinv²) + b, 0) on whole arrays, from the aggregated features, the column and the row. -/
def combine (a h : FVec Ideal S100000x64 .f32) (dc : FVec Ideal S100000x1 .f32) (br : FVec Ideal S1x64 .f32) : FVec Ideal S100000x64 .f32 :=
  maximumf (F := Ideal)
    (addf (F := Ideal)
      (addf (F := Ideal) a
        (mulf (F := Ideal) h (broadcastInDim S100000x64 ![0, 1] Gen.bcast_S100000x1_S100000x64_0_1 dc)))
      (broadcastInDim S100000x64 ![0, 1] Gen.bcast_S1x64_S100000x64_0_1 br))
    (broadcastInDim S100000x64 ![] Gen.bcast_S_S100000x64 (constant (F := Ideal) S_ .f32 0x00000000#32))

/-- One graph convolution layer after its matrix product. -/
def layer (h : FVec Ideal S100000x64 .f32) (s d : IVec S1600000 32) (b : FVec Ideal S64 .f32) : FVec Ideal S100000x64 .f32 :=
  combine (agg h s d) h (selfCol d) (biasRow b)

/-- The mean of the node features over the groups of `g`: sum / max (count, 1). -/
def pool (h : FVec Ideal S100000x64 .f32) (g : IVec S100000 32) : FVec Ideal S100000x64 .f32 :=
  Host.divf (F := Ideal)
    (Host.scatterAdd (F := Ideal) scatter_S100000x64_S100000x1_S100000x64_1_0_0_1
      (broadcastInDim S100000x64 ![] Gen.bcast_S_S100000x64 (constant (F := Ideal) S_ .f32 0x00000000#32))
      (broadcastInDim S100000x1 ![0] Gen.bcast_S100000_S100000x1_0 g)
      h)
    (broadcastInDim S100000x64 ![0, 1] Gen.bcast_S100000x1_S100000x64_0_1
      (broadcastInDim S100000x1 ![0] Gen.bcast_S100000_S100000x1_0
        (maximumf (F := Ideal)
          (Host.scatterAdd (F := Ideal) scatter_S100000_S100000x1_S100000_n_0_0_1
            (broadcastInDim S100000 ![] Gen.bcast_S_S100000 (constant (F := Ideal) S_ .f32 0x00000000#32))
            (broadcastInDim S100000x1 ![0] Gen.bcast_S100000_S100000x1_0 g)
            (broadcastInDim S100000 ![] Gen.bcast_S_S100000 (constant (F := Ideal) S_ .f32 0x3F800000#32)))
          (broadcastInDim S100000 ![] Gen.bcast_S_S100000 (constant (F := Ideal) S_ .f32 0x3F800000#32)))))

/-- The last bias as a row [1, 16]. -/
def headRow (b : FVec Ideal S16 .f32) : FVec Ideal S1x16 .f32 :=
  broadcastInDim S1x16 ![1] Gen.bcast_S16_S1x16_1 b

/-- The classifier: matrix product plus bias, then the row-wise log-softmax. -/
def head (p : FVec Ideal S100000x64 .f32) (w : FVec Ideal S64x16 .f32) (br : FVec Ideal S1x16 .f32) : FVec Ideal S100000x16 .f32 :=
  logSoftmax
    (addf (F := Ideal)
      (Host.dotGeneral (F := Ideal) (φ₁ := .f32) (φ₂ := .f32) dot_S100000x64_S64x16_S100000x16_1_0_0_1_n_n none p w)
      (broadcastInDim S100000x16 ![0, 1] Gen.bcast_S1x16_S100000x16_0_1 br))

/-- The first matrix product. -/
def proj1 (x : FVec Ideal S100000x128 .f32) (w : FVec Ideal S128x64 .f32) : FVec Ideal S100000x64 .f32 :=
  Host.dotGeneral (F := Ideal) (φ₁ := .f32) (φ₂ := .f32) dot_S100000x128_S128x64_S100000x64_1_0_0_1_n_n none x w

/-- The second matrix product. -/
def proj2 (x : FVec Ideal S100000x64 .f32) (w : FVec Ideal S64x64 .f32) : FVec Ideal S100000x64 .f32 :=
  Host.dotGeneral (F := Ideal) (φ₁ := .f32) (φ₂ := .f32) dot_S100000x64_S64x64_S100000x64_1_0_0_1_n_n none x w

/-- The whole network. -/
def model (x0 : FVec Ideal S100000x128 .f32) (x1 : IVec S2x1600000 32) (x2 : IVec S100000 32)
    (x3 : FVec Ideal S128x64 .f32) (x4 : FVec Ideal S64 .f32) (x5 : FVec Ideal S64x64 .f32) (x6 : FVec Ideal S64 .f32)
    (x7 : FVec Ideal S64x16 .f32) (x8 : FVec Ideal S16 .f32) : FVec Ideal S100000x16 .f32 :=
  head (pool (layer (proj2 (layer (proj1 x0 x3) (srcOf x1) (dstOf x1) x4) x5) (srcOf x1) (dstOf x1) x6) x2) x7 (headRow x8)

end Cert.Spec

end
-- ==== Proof.RegionClaims.lean ====
/-
  What each of the five kernel regions leaves in its output array, as a proposition over the buffer contents V the
  region is entered with: the two matrix products, the two fused combine steps max ((agg + h · dinv²) + b, 0), and
  the classifier head, each on the whole arrays.
-/
import proofs.«140760_j48129403519136_1_alg».proof.Proof.Gen.KernelIdeal.Frame
import proofs.«140760_j48129403519136_1_alg».proof.Proof.ModelSpec

noncomputable section

namespace Cert.KernelIdeal.RegionClaims

open Cert.KernelIdeal Cert.KernelIdeal.Gen Idealize.ShloMosaic Idealize.ShloMosaic.TcCoe Idealize.SL.Sem

/-- The buffer contents a region is entered with. -/
abbrev Entry : Type := (c : Dev nD) → (b : Ref sig .tc) → Buf (Elt Ideal) ((c : Thread nD τ).loc b)

/-- Region 0 leaves x · W1. -/
def Matmul0 : Prop := ∀ (V : Entry) (c : Dev nD),
  (dat0 (F := Ideal) V c).arrAt 2 cfg0.N = Cert.Spec.proj1 (V c main_arg0) (V c main_arg3)

/-- Region 1 leaves the first layer's combine. -/
def Combine1 : Prop := ∀ (V : Entry) (c : Dev nD),
  (dat1 (F := Ideal) V c).arrAt 4 cfg1.N = Cert.Spec.combine (V c main_v39) (V c main_v4) (V c main_v41) (V c main_v42)

/-- Region 2 leaves h · W2. -/
def Matmul2 : Prop := ∀ (V : Entry) (c : Dev nD),
  (dat2 (F := Ideal) V c).arrAt 2 cfg2.N = Cert.Spec.proj2 (V c main_v43) (V c main_arg5)

/-- Region 3 leaves the second layer's combine. -/
def Combine3 : Prop := ∀ (V : Entry) (c : Dev nD),
  (dat3 (F := Ideal) V c).arrAt 4 cfg3.N = Cert.Spec.combine (V c main_v79) (V c main_v44) (V c main_v81) (V c main_v82)

/-- Region 4 leaves the classifier head. -/
def Head4 : Prop := ∀ (V : Entry) (c : Dev nD),
  (dat4 (F := Ideal) V c).arrAt 3 cfg4.N = Cert.Spec.head (V c main_v95) (V c main_arg7) (V c main_v96)

end Cert.KernelIdeal.RegionClaims

end
-- ==== Proof.LibBlockMatmul.lean ====
import Idealize.ShloMosaic.Lib.ValueIdx
import Idealize.ShloMosaic.PureOps.Ideal.Laws

/-!
# The plain two-dimensional contraction read at an index, and a row block of a product

For a left operand `A` of shape `[M, K]`, a right operand `B` of shape `[K, N]` and the dimension numbers that contract
the left operand's axis 1 with the right operand's axis 0 (no batch axes), the product at the exact (extended real)
values is, at row `p` and column `q`, the sum over `k < K` of `A (p, k) * B (k, q)`. This holds for the matrix unit's
product accumulated into the zero splat (`matmul_zero_plain_apply`) and for the host's `dot_general`
(`dotGeneral_plain_apply`): both are the same sum over the contraction shape's indices, re-indexed through the bijection
between a one-axis contraction index and its coordinate (`plain_sum`).

Consequently a row block of a product is the product of the row block (`block_matmul_eq_dotGeneral`): if the rows of an
`[m, K]` block `A'` are rows of `A` — row `p` of `A'` is row `r` of `A` — then the block's product with `B` at `(p, q)` is the
whole product at `(r, q)`, since each is the sum over `k` of `A (r, k) * B (k, q)`.

The dimension numbers are given as the literal record `plainDims wf` (`wf` any proof of its well-formedness); a record
defined with the same axis lists unfolds to it.
-/

namespace Cert.BlockMatmul

open Idealize.ShloMosaic Idealize.ShloMosaic.ValueIdx

/-- The dimension numbers of a plain `[M, K]` by `[K, N]` product with literal axis lists: contract axis 1 of the left
    operand with axis 0 of the right, no batch axes. -/
abbrev plainDims {M K N : Nat} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

section
variable {M K N : Nat} (wf : DotDims.WF ⟨2, ![M, K]⟩ ⟨2, ![K, N]⟩ ⟨2, ![M, N]⟩ [1] [0] [0] [1] [] [])

/-- The left operand's row coordinate is the result's row coordinate. -/
theorem plain_lhs0 (i : (⟨2, ![M, N]⟩ : Shape).Idx) (k : (plainDims wf).contr.Idx) :
    ((plainDims wf).lhsIdx i k 0).val = (i 0).val := by
  unfold DotDims.lhsIdx
  rw [dif_neg (show ¬(0 : Fin 2) ∈ ([] : List (Fin 2)) by decide), dif_pos (show (0 : Fin 2) ∈ ([0] : List (Fin 2)) by decide)]
  rfl

/-- The left operand's column coordinate is the contraction coordinate. -/
theorem plain_lhs1 (i : (⟨2, ![M, N]⟩ : Shape).Idx) (k : (plainDims wf).contr.Idx) :
    ((plainDims wf).lhsIdx i k 1).val = (k ⟨0, Nat.one_pos⟩).val :=
  (plainDims wf).lhsIdx_val_of_single rfl i k

/-- The right operand's row coordinate is the contraction coordinate. -/
theorem plain_rhs0 (i : (⟨2, ![M, N]⟩ : Shape).Idx) (k : (plainDims wf).contr.Idx) :
    ((plainDims wf).rhsIdx i k 0).val = (k ⟨0, Nat.one_pos⟩).val :=
  (plainDims wf).rhsIdx_val_of_single rfl i k

/-- The right operand's column coordinate is the result's column coordinate. -/
theorem plain_rhs1 (i : (⟨2, ![M, N]⟩ : Shape).Idx) (k : (plainDims wf).contr.Idx) :
    ((plainDims wf).rhsIdx i k 1).val = (i 1).val := by
  unfold DotDims.rhsIdx
  rw [dif_neg (show ¬(1 : Fin 2) ∈ ([] : List (Fin 2)) by decide), dif_pos (show (1 : Fin 2) ∈ ([1] : List (Fin 2)) by decide)]
  rfl

/-- The contraction's sum at `(p, q)`, over the contraction shape's indices, is the sum over `k < K` of
    `lhs (p, k) * rhs (k, q)`. -/
theorem plain_sum (lhs : (⟨2, ![M, K]⟩ : Shape).Idx → EReal) (rhs : (⟨2, ![K, N]⟩ : Shape).Idx → EReal) (p : Fin M) (q : Fin N) :
    ∑ k : (plainDims wf).contr.Idx, lhs ((plainDims wf).lhsIdx (ix2 p q) k) * rhs ((plainDims wf).rhsIdx (ix2 p q) k)
      = ∑ k : Fin K, lhs (ix2 p k) * rhs (ix2 k q) := by
  rw [← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact plain_lhs0 wf _ _
    | ⟨1, _⟩ => exact (plain_lhs1 wf _ _).trans hk)
  have er : (plainDims wf).rhsIdx (ix2 p q) ((contrEquiv1 (plainDims wf) K rfl rfl).symm k) = ix2 k q := funext fun a => Fin.ext (by
    match a with
    | ⟨0, _⟩ => exact (plain_rhs0 wf _ _).trans hk
    | ⟨1, _⟩ => exact plain_rhs1 wf _ _)
  rw [el, er]

/-- The matrix unit's product accumulated into the zero splat, at `(p, q)`: the sum over `k < K` of
    `lhs (p, k) * rhs (k, q)`. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (plainDims wf) prec lhs rhs (constant ⟨2, ![M, N]⟩ .f32 0x00000000#32) (ix2 p q)
      = ∑ k : Fin K, lhs (ix2 p k) * rhs (ix2 k q) :=
  (Ideal.matmul_constant_zero_apply (plainDims wf) prec lhs rhs (ix2 p q)).trans (plain_sum wf lhs rhs p q)

/-- The host's `dot_general` at `(p, q)`: the same sum. -/
theorem dotGeneral_plain_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (plainDims wf) prec lhs rhs (ix2 p q) = ∑ k : Fin K, lhs (ix2 p k) * rhs (ix2 k q) :=
  (Ideal.dotGeneral_apply (plainDims wf) prec .single lhs rhs (ix2 p q)).trans (plain_sum wf lhs rhs p q)

end

/-- A ROW BLOCK OF A PRODUCT IS THE PRODUCT OF THE ROW BLOCK: when row `p` of the `[m, K]` block `lhs'` is row `r` of the
    `[M, K]` operand `lhs` and the right operands agree, the block's product into the zero splat at `(p, q)` is the host's
    `dot_general` of the whole operands at `(r, q)`. -/
theorem block_matmul_eq_dotGeneral {m M K N : Nat} {φ₁ φ₂ ψ₁ ψ₂ : FTy}
    (wf' : DotDims.WF ⟨2, ![m, K]⟩ ⟨2, ![K, N]⟩ ⟨2, ![m, N]⟩ [1] [0] [0] [1] [] [])
    (wf : DotDims.WF ⟨2, ![M, K]⟩ ⟨2, ![K, N]⟩ ⟨2, ![M, N]⟩ [1] [0] [0] [1] [] [])
    (prec' prec : Option ContractPrecision)
    (lhs' : FVec Ideal ⟨2, ![m, K]⟩ φ₁) (rhs' : FVec Ideal ⟨2, ![K, N]⟩ φ₂)
    (lhs : FVec Ideal ⟨2, ![M, K]⟩ ψ₁) (rhs : FVec Ideal ⟨2, ![K, N]⟩ ψ₂)
    (p : Fin m) (r : Fin M) (q : Fin N)
    (hl : ∀ k : Fin K, lhs' (ix2 p k) = lhs (ix2 r k)) (hr : ∀ k : Fin K, rhs' (ix2 k q) = rhs (ix2 k q)) :
    matmul (F := Ideal) (plainDims wf') prec' lhs' rhs' (constant ⟨2, ![m, N]⟩ .f32 0x00000000#32) (ix2 p q)
      = Host.dotGeneral (F := Ideal) (plainDims wf) prec lhs rhs (ix2 r q) := by
  rw [matmul_zero_plain_apply, dotGeneral_plain_apply]
  exact Finset.sum_congr rfl fun k _ => by rw [hl k, hr k]

end Cert.BlockMatmul
-- ==== Proof.RegionMatmul.lean ====
import proofs.«140760_j48129403519136_1_alg».proof.Defs
import proofs.«140760_j48129403519136_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«140760_j48129403519136_1_alg».proof.Proof.Gen.ReferenceIdeal
import proofs.«140760_j48129403519136_1_alg».proof.Proof.LibBlockMatmul

/-!
# Regions 0 and 2: a row-blocked product is the product

Each region runs ten grid points. Point t reads row block t ([10000, C]) of the left operand and the whole [C, 64]
weight, and writes row block t of the [100000, 64] result: the product of the two blocks accumulated into the zero
splat. At the exact values the product of the blocks at (p, q) is the sum over k < C of the left operand at
(10000 t + p, k) times the weight at (k, q), which is the host's product of the whole operands at (10000 t + p, q).
The ten blocks tile the result array, so after the region it is the host's product.
-/

noncomputable section

open Idealize.ShloMosaic Idealize.ShloMosaic.TcCoe Idealize.SL.Sem
open Idealize.ShloMosaic.Pipeline (Dat)

namespace Cert.KernelIdeal.RegionMatmul

open Cert.KernelIdeal Cert.KernelIdeal.Gen Idealize.ShloMosaic.ValueIdx Cert.BlockMatmul

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-! ## Region 0: the [100000, 128] operand's ten row blocks times the [128, 64] weight -/

/-- The index maps over the grid: at point t the blocked windows are at block (t, 0), the weight's at (0, 0). -/
theorem idx_facts0 : ∀ t : Fin cfg0.N, win0_0.index t 0 = t.val ∧ win0_0.index t 1 = 0
    ∧ win0_1.index t 0 = 0 ∧ win0_1.index t 1 = 0
    ∧ win0_2.index t 0 = t.val ∧ win0_2.index t 1 = 0 :=
  (by decide +kernel : ∀ t : Fin grid0.N, win0_0.index t 0 = t.val ∧ win0_0.index t 1 = 0
    ∧ win0_1.index t 0 = 0 ∧ win0_1.index t 1 = 0
    ∧ win0_2.index t 0 = t.val ∧ win0_2.index t 1 = 0)

/-- What the result array ends holding: the host's product of the whole operands. -/
abbrev G0 (c : Dev nD) : Buf (Elt Ideal) ((cfg0.win 2).arr.view.loc (c.tc : Thread nD τ)) :=
  Host.dotGeneral (F := Ideal) (φ₁ := .f32) (φ₂ := .f32) Cert.ReferenceIdeal.dot_S100000x128_S128x64_S100000x64_1_0_0_1_n_n none
    (V c main_arg0) (V c main_arg3)

/-- The body's product at row p, column q of its blocks: narrowing to bf16 is the identity at the exact values, and the
    product into the zero splat is the sum over k < 128 of x0 (p, k) * x1 (k, q). -/
theorem pay0_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  exact matmul_zero_plain_apply Facts₀.dot_S10000x128_S128x64_S10000x64_1_0_0_1_n_n_wf none x0 x1 p q

/-- The host's product at row r, column q: the sum over k < 128 of a (r, k) * b (k, q). -/
theorem host0_apply (a : Vec Ideal S100000x128 .f32) (b : Vec Ideal S128x64 .f32) (r : Fin 100000) (q : Fin 64) :
    Host.dotGeneral (F := Ideal) (φ₁ := .f32) (φ₂ := .f32) Cert.ReferenceIdeal.dot_S100000x128_S128x64_S100000x64_1_0_0_1_n_n none a b (ix2 r q)
      = ∑ k : Fin 128, a (ix2 r k) * b (ix2 k q) :=
  dotGeneral_plain_apply Cert.ReferenceIdeal.Gen.dot_S100000x128_S128x64_S100000x64_1_0_0_1_n_n_wf none a b r q

/-- Block t of the left operand at (p, k) is the operand at row 10000 t + p, column k. -/
theorem iblk0_0_apply (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : S100000x128.Idx → Elt Ideal .f32) (ix2 r k) := by
  obtain ⟨e00, e01, -⟩ := idx_facts0 t
  unfold iblk0
  rw [View.read_apply]
  show V c main_arg0 _ = V c main_arg0 _
  congr 1
  funext a
  apply Fin.ext
  match a with
  | ⟨0, _⟩ => show win0_0.index t 0 * 10000 + 1 * p.val = r.val; rw [e00, hr]; omega
  | ⟨1, _⟩ => show win0_0.index t 1 * 128 + 1 * k.val = k.val; rw [e01]; omega

/-- The weight's one block is the weight. -/
theorem iblk0_1_apply (c : Dev nD) (t : Fin cfg0.N) (k : Fin 128) (q : Fin 64) :
    (iblk0 V c 1 t : Vec Ideal S128x64 .f32) (ix2 k q) = (V c main_arg3 : S128x64.Idx → Elt Ideal .f32) (ix2 k q) := by
  obtain ⟨-, -, e10, e11, -⟩ := idx_facts0 t
  unfold iblk0
  rw [View.read_apply]
  show V c main_arg3 _ = V c main_arg3 _
  congr 1
  funext a
  apply Fin.ext
  match a with
  | ⟨0, _⟩ => show win0_1.index t 0 * 128 + 1 * k.val = k.val; rw [e10]; omega
  | ⟨1, _⟩ => show win0_1.index t 1 * 64 + 1 * q.val = q.val; rw [e11]; omega

/-- What point t writes back is block t of the host's product: at (p, q) both are the sum over k of the left operand at
    (10000 t + p, k) times the weight at (k, q). -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e00, e01, e10, e11, e20, e21⟩ := idx_facts0 t
  have hN : grid0.N = 10 := N_0
  have ht : t.val < 10 := hN ▸ t.isLt
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (ix2 p q) = G0 V c (((cfg0.win 2).blk t).view.emb (ix2 p q))
  have hp : p.val < 10000 := p.isLt
  have hemb : ((cfg0.win 2).blk t).view.emb (ix2 p q) = (ix2 (⟨t.val * 10000 + p.val, by omega⟩ : Fin 100000) q : S100000x64.Idx) := by
    funext a
    apply Fin.ext
    match a with
    | ⟨0, _⟩ => show win0_2.index t 0 * 10000 + 1 * p.val = t.val * 10000 + p.val; rw [e20]; omega
    | ⟨1, _⟩ => show win0_2.index t 1 * 64 + 1 * q.val = q.val; rw [e21]; omega
  refine (pay0_apply (iblk0 V c 0 t) (iblk0 V c 1 t) p q).trans ?_
  refine Eq.trans ?_ (congrArg (G0 V c) hemb).symm
  refine Eq.trans ?_ (host0_apply (V c main_arg0) (V c main_arg3) ⟨t.val * 10000 + p.val, by omega⟩ q).symm
  refine Finset.sum_congr rfl fun k _ => ?_
  rw [iblk0_0_apply V c t p k ⟨t.val * 10000 + p.val, by omega⟩ rfl, iblk0_1_apply V c t k q]

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Every index (r, q) of the result array is in the block of point r / 10000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by rw [hN]; omega
  refine ⟨⟨(i 0).val / 10000, ht⟩, flush0_2 _, ?_⟩
  rw [mem_blk0]
  obtain ⟨-, -, -, -, e20, e21⟩ := idx_facts0 ⟨(i 0).val / 10000, ht⟩
  intro a
  match a with
  | ⟨0, _⟩ => show win0_2.index ⟨(i 0).val / 10000, ht⟩ 0 * 10000 ≤ (i 0).val ∧ (i 0).val < win0_2.index ⟨(i 0).val / 10000, ht⟩ 0 * 10000 + 10000; rw [e20]; show (i 0).val / 10000 * 10000 ≤ (i 0).val ∧ (i 0).val < (i 0).val / 10000 * 10000 + 10000; omega
  | ⟨1, _⟩ => show win0_2.index ⟨(i 0).val / 10000, ht⟩ 1 * 64 ≤ (i 1).val ∧ (i 1).val < win0_2.index ⟨(i 0).val / 10000, ht⟩ 1 * 64 + 64; rw [e21]; omega

/-- The result array after the region is the host's product of the whole operands. -/
theorem final0 (c : Dev nD) :
    (dat0 (F := Ideal) V c).arrAt 2 cfg0.N
      = Host.dotGeneral (F := Ideal) (φ₁ := .f32) (φ₂ := .f32) Cert.ReferenceIdeal.dot_S100000x128_S128x64_S100000x64_1_0_0_1_n_n none
          (V c main_arg0) (V c main_arg3) :=
  (dat0 (F := Ideal) V c).arrAt_eq_of_cover 2 (G0 V c) (fun t _ => flushed0_eq V c t) cover0

/-! ## Region 2: the [100000, 64] operand's ten row blocks times the [64, 64] weight -/

/-- The index maps over the grid: at point t the blocked windows are at block (t, 0), the weight's at (0, 0). -/
theorem idx_facts2 : ∀ t : Fin cfg2.N, win2_0.index t 0 = t.val ∧ win2_0.index t 1 = 0
    ∧ win2_1.index t 0 = 0 ∧ win2_1.index t 1 = 0
    ∧ win2_2.index t 0 = t.val ∧ win2_2.index t 1 = 0 :=
  (by decide +kernel : ∀ t : Fin grid2.N, win2_0.index t 0 = t.val ∧ win2_0.index t 1 = 0
    ∧ win2_1.index t 0 = 0 ∧ win2_1.index t 1 = 0
    ∧ win2_2.index t 0 = t.val ∧ win2_2.index t 1 = 0)

/-- What the result array ends holding: the host's product of the whole operands. -/
abbrev G2 (c : Dev nD) : Buf (Elt Ideal) ((cfg2.win 2).arr.view.loc (c.tc : Thread nD τ)) :=
  Host.dotGeneral (F := Ideal) (φ₁ := .f32) (φ₂ := .f32) Cert.ReferenceIdeal.dot_S100000x64_S64x64_S100000x64_1_0_0_1_n_n none
    (V c main_v43) (V c main_arg5)

/-- The body's product at row p, column q of its blocks: narrowing to bf16 is the identity at the exact values, and the
    product into the zero splat is the sum over k < 64 of x0 (p, k) * x1 (k, q). -/
theorem pay2_apply (x0 : Vec Ideal S10000x64 .f32) (x1 : Vec Ideal S64x64 .f32) (p : Fin 10000) (q : Fin 64) :
    k2_pay1 (F := Ideal) x0 x1 (ix2 p q) = ∑ k : Fin 64, x0 (ix2 p k) * x1 (ix2 k q) := by
  unfold k2_pay1
  simp only [shapeCast_self]
  exact matmul_zero_plain_apply Facts₀.dot_S10000x64_S64x64_S10000x64_1_0_0_1_n_n_wf none x0 x1 p q

/-- The host's product at row r, column q: the sum over k < 64 of a (r, k) * b (k, q). -/
theorem host2_apply (a : Vec Ideal S100000x64 .f32) (b : Vec Ideal S64x64 .f32) (r : Fin 100000) (q : Fin 64) :
    Host.dotGeneral (F := Ideal) (φ₁ := .f32) (φ₂ := .f32) Cert.ReferenceIdeal.dot_S100000x64_S64x64_S100000x64_1_0_0_1_n_n none a b (ix2 r q)
      = ∑ k : Fin 64, a (ix2 r k) * b (ix2 k q) :=
  dotGeneral_plain_apply Cert.ReferenceIdeal.Gen.dot_S100000x64_S64x64_S100000x64_1_0_0_1_n_n_wf none a b r q

/-- Block t of the left operand at (p, k) is the operand at row 10000 t + p, column k. -/
theorem iblk2_0_apply (c : Dev nD) (t : Fin cfg2.N) (p : Fin 10000) (k : Fin 64) (r : Fin 100000)
    (hr : r.val = t.val * 10000 + p.val) :
    (iblk2 V c 0 t : Vec Ideal S10000x64 .f32) (ix2 p k) = (V c main_v43 : S100000x64.Idx → Elt Ideal .f32) (ix2 r k) := by
  obtain ⟨e00, e01, -⟩ := idx_facts2 t
  unfold iblk2
  rw [View.read_apply]
  show V c main_v43 _ = V c main_v43 _
  congr 1
  funext a
  apply Fin.ext
  match a with
  | ⟨0, _⟩ => show win2_0.index t 0 * 10000 + 1 * p.val = r.val; rw [e00, hr]; omega
  | ⟨1, _⟩ => show win2_0.index t 1 * 64 + 1 * k.val = k.val; rw [e01]; omega

/-- The weight's one block is the weight. -/
theorem iblk2_1_apply (c : Dev nD) (t : Fin cfg2.N) (k : Fin 64) (q : Fin 64) :
    (iblk2 V c 1 t : Vec Ideal S64x64 .f32) (ix2 k q) = (V c main_arg5 : S64x64.Idx → Elt Ideal .f32) (ix2 k q) := by
  obtain ⟨-, -, e10, e11, -⟩ := idx_facts2 t
  unfold iblk2
  rw [View.read_apply]
  show V c main_arg5 _ = V c main_arg5 _
  congr 1
  funext a
  apply Fin.ext
  match a with
  | ⟨0, _⟩ => show win2_1.index t 0 * 64 + 1 * k.val = k.val; rw [e10]; omega
  | ⟨1, _⟩ => show win2_1.index t 1 * 64 + 1 * q.val = q.val; rw [e11]; omega

/-- What point t writes back is block t of the host's product: at (p, q) both are the sum over k of the left operand at
    (10000 t + p, k) times the weight at (k, q). -/
theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e00, e01, e10, e11, e20, e21⟩ := idx_facts2 t
  have hN : grid2.N = 10 := N_2
  have ht : t.val < 10 := hN ▸ t.isLt
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q) = G2 V c (((cfg2.win 2).blk t).view.emb (ix2 p q))
  have hp : p.val < 10000 := p.isLt
  have hemb : ((cfg2.win 2).blk t).view.emb (ix2 p q) = (ix2 (⟨t.val * 10000 + p.val, by omega⟩ : Fin 100000) q : S100000x64.Idx) := by
    funext a
    apply Fin.ext
    match a with
    | ⟨0, _⟩ => show win2_2.index t 0 * 10000 + 1 * p.val = t.val * 10000 + p.val; rw [e20]; omega
    | ⟨1, _⟩ => show win2_2.index t 1 * 64 + 1 * q.val = q.val; rw [e21]; omega
  refine (pay2_apply (iblk2 V c 0 t) (iblk2 V c 1 t) p q).trans ?_
  refine Eq.trans ?_ (congrArg (G2 V c) hemb).symm
  refine Eq.trans ?_ (host2_apply (V c main_v43) (V c main_arg5) ⟨t.val * 10000 + p.val, by omega⟩ q).symm
  refine Finset.sum_congr rfl fun k _ => ?_
  rw [iblk2_0_apply V c t p k ⟨t.val * 10000 + p.val, by omega⟩ rfl, iblk2_1_apply V c t k q]

/-- An index of the result array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- Every index (r, q) of the result array is in the block of point r / 10000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have ht : (i 0).val / 10000 < grid2.N := by rw [hN]; omega
  refine ⟨⟨(i 0).val / 10000, ht⟩, flush2_2 _, ?_⟩
  rw [mem_blk2]
  obtain ⟨-, -, -, -, e20, e21⟩ := idx_facts2 ⟨(i 0).val / 10000, ht⟩
  intro a
  match a with
  | ⟨0, _⟩ => show win2_2.index ⟨(i 0).val / 10000, ht⟩ 0 * 10000 ≤ (i 0).val ∧ (i 0).val < win2_2.index ⟨(i 0).val / 10000, ht⟩ 0 * 10000 + 10000; rw [e20]; show (i 0).val / 10000 * 10000 ≤ (i 0).val ∧ (i 0).val < (i 0).val / 10000 * 10000 + 10000; omega
  | ⟨1, _⟩ => show win2_2.index ⟨(i 0).val / 10000, ht⟩ 1 * 64 ≤ (i 1).val ∧ (i 1).val < win2_2.index ⟨(i 0).val / 10000, ht⟩ 1 * 64 + 64; rw [e21]; omega

/-- The result array after the region is the host's product of the whole operands. -/
theorem final2 (c : Dev nD) :
    (dat2 (F := Ideal) V c).arrAt 2 cfg2.N
      = Host.dotGeneral (F := Ideal) (φ₁ := .f32) (φ₂ := .f32) Cert.ReferenceIdeal.dot_S100000x64_S64x64_S100000x64_1_0_0_1_n_n none
          (V c main_v43) (V c main_arg5) :=
  (dat2 (F := Ideal) V c).arrAt_eq_of_cover 2 (G2 V c) (fun t _ => flushed2_eq V c t) cover2

end Cert.KernelIdeal.RegionMatmul

end
-- ==== Proof.LibLayoutColumn.lean ====
/-
  Two keepdims layout steps read at an index: a column [a, 1] broadcast along its unit axis to [a, b] reads, at
  (p, c), the column at p; a vector [a] cast to the column [a, 1] reads, at (i, 0), the vector at i.
-/
import Idealize.ShloMosaic.Lib.Pipeline.Value
import Idealize.ShloMosaic.Lib.ValueIdx

noncomputable section

namespace Cert.Lib.Layout

open Idealize.ShloMosaic Idealize.ShloMosaic.ValueIdx

variable {α : Type}

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to the column [a, 1] reads, at (i, u), the vector at i, whatever the unit coordinate u. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Layout

end
-- ==== Proof.RegionCombine.lean ====
/-
  The two combine regions, read as whole arrays. Each runs ten points; point t holds rows 10000 t … 10000 t + 9999 of
  the two [100000, 64] operands and of the [100000, 1] column, and the whole [1, 64] bias row, and leaves in rows
  10000 t … 10000 t + 9999 of the result, at column q, max((a + h · d) + b, 0) of the entries a, h at (row, q), d at
  (row, 0) and b at (0, q). The host's expression of the four whole arrays has the same entry at every index: the column
  broadcast along its unit axis and the row broadcast down the rows read the same entries as the per-block broadcasts.
  The ten row blocks tile the result, so the result array is that expression.
-/
import proofs.«140760_j48129403519136_1_alg».proof.Defs
import proofs.«140760_j48129403519136_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«140760_j48129403519136_1_alg».proof.Proof.Gen.ReferenceIdeal
import proofs.«140760_j48129403519136_1_alg».proof.Proof.LibLayoutColumn

noncomputable section

open Idealize.ShloMosaic Idealize.ShloMosaic.TcCoe Idealize.SL.Sem
open Idealize.ShloMosaic.Pipeline (Dat)

namespace Cert.KernelIdeal.RegionCombine

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The array the host's expression leaves. -/
abbrev G (A H : FVec Ideal Cert.ReferenceIdeal.S100000x64 .f32) (D : FVec Ideal Cert.ReferenceIdeal.S100000x1 .f32)
    (B : FVec Ideal Cert.ReferenceIdeal.S1x64 .f32) : FVec Ideal Cert.ReferenceIdeal.S100000x64 .f32 :=
  maximumf (F := Ideal)
    (addf (addf A
        (mulf H
          (broadcastInDim Cert.ReferenceIdeal.S100000x64 ![0, 1] Cert.ReferenceIdeal.Gen.bcast_S100000x1_S100000x64_0_1 D)))
      (broadcastInDim Cert.ReferenceIdeal.S100000x64 ![0, 1] Cert.ReferenceIdeal.Gen.bcast_S1x64_S100000x64_0_1 B))
    (broadcastInDim Cert.ReferenceIdeal.S100000x64 ![] Cert.ReferenceIdeal.Gen.bcast_S_S100000x64
      (constant (F := Ideal) Cert.ReferenceIdeal.S_ .f32 0x00000000#32))

/-- The one entry every index of either side is built from. -/
abbrev entry (a h d b : Elt Ideal .f32) : Elt Ideal .f32 :=
  max ((a + h * d) + b) (Ideal.ofBits .f32 0x00000000#32)

theorem pay1_apply (x0 x1 : Vec Ideal S10000x64 .f32) (x2 : Vec Ideal S10000x1 .f32) (x3 : Vec Ideal S1x64 .f32)
    (p : Fin 10000) (q : Fin 64) :
    k1_pay1 (F := Ideal) x0 x1 x2 x3 (ix2 p q)
      = entry (x0 (ix2 p q)) (x1 (ix2 p q)) (x2 (ix2 p (0 : Fin 1))) (x3 (ix2 (0 : Fin 1) q)) := by
  unfold k1_pay1
  simp only [shapeCast_self]
  show max ((x0 (ix2 p q) + x1 (ix2 p q) * broadcastTo S10000x64 x2 broadcasts_S10000x1_S10000x64 (ix2 p q))
        + broadcastTo S10000x64 x3 broadcasts_S1x64_S10000x64 (ix2 p q)) _ = _
  rw [Cert.Lib.Layout.broadcastTo_a1_ab_apply x2 broadcasts_S10000x1_S10000x64 p q,
    broadcastTo_1b_ab_apply x3 broadcasts_S1x64_S10000x64 p q]
  rfl

theorem G_apply (A H : FVec Ideal Cert.ReferenceIdeal.S100000x64 .f32) (D : FVec Ideal Cert.ReferenceIdeal.S100000x1 .f32)
    (B : FVec Ideal Cert.ReferenceIdeal.S1x64 .f32) (i : Fin 100000) (q : Fin 64) :
    G A H D B (ix2 i q) = entry (A (ix2 i q)) (H (ix2 i q)) (D (ix2 i (0 : Fin 1))) (B (ix2 (0 : Fin 1) q)) := by
  show max ((A (ix2 i q) + H (ix2 i q) * broadcastInDim Cert.ReferenceIdeal.S100000x64 ![0, 1] Cert.ReferenceIdeal.Gen.bcast_S100000x1_S100000x64_0_1 D (ix2 i q))
        + broadcastInDim Cert.ReferenceIdeal.S100000x64 ![0, 1] Cert.ReferenceIdeal.Gen.bcast_S1x64_S100000x64_0_1 B (ix2 i q)) _ = _
  rw [broadcastInDim_apply ![0, 1] Cert.ReferenceIdeal.Gen.bcast_S100000x1_S100000x64_0_1 D (ix2 i q) (ix2 i (0 : Fin 1)) (fun a => by
        match a with
        | ⟨0, _⟩ => rfl
        | ⟨1, _⟩ => rfl),
    broadcastInDim_apply ![0, 1] Cert.ReferenceIdeal.Gen.bcast_S1x64_S100000x64_0_1 B (ix2 i q) (ix2 (0 : Fin 1) q) (fun a => by
        match a with
        | ⟨0, _⟩ => rfl
        | ⟨1, _⟩ => rfl)]
  rfl

/-- The second combine kernel's payload is the same term. -/
theorem pay3_apply (x0 x1 : Vec Ideal S10000x64 .f32) (x2 : Vec Ideal S10000x1 .f32) (x3 : Vec Ideal S1x64 .f32)
    (p : Fin 10000) (q : Fin 64) :
    k3_pay1 (F := Ideal) x0 x1 x2 x3 (ix2 p q)
      = entry (x0 (ix2 p q)) (x1 (ix2 p q)) (x2 (ix2 p (0 : Fin 1))) (x3 (ix2 (0 : Fin 1) q)) :=
  pay1_apply x0 x1 x2 x3 p q

/-! ## Region 1 -/

/-- The printed index maps of region 1, decided over its grid: each row-blocked window sits at block (t, 0), the bias
    window at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of window 0's block at point t is entry (10000 t + p, q) of its array. -/
theorem iblk1_0_apply (c : Dev nD) (t : Fin cfg1.N) (p : Fin 10000) (q : Fin 64) (i : Fin 100000)
    (hi : i.val = t.val * 10000 + p.val) :
    iblk1 (F := Ideal) V c 0 t (ix2 p q) = V c main_v39 (ix2 i q) := by
  obtain ⟨e0, e1, -⟩ := idx_facts1 t
  unfold iblk1
  rw [View.read_apply]
  show V c main_v39 _ = V c main_v39 _
  congr 1
  funext a
  apply Fin.ext
  match a with
  | ⟨0, _⟩ => show win1_0.index t (0 : Fin 2) * 10000 + 1 * p.val = i.val; rw [e0, hi]; omega
  | ⟨1, _⟩ => show win1_0.index t (1 : Fin 2) * 64 + 1 * q.val = q.val; rw [e1]; omega

/-- Entry (p, q) of window 1's block at point t is entry (10000 t + p, q) of its array. -/
theorem iblk1_1_apply (c : Dev nD) (t : Fin cfg1.N) (p : Fin 10000) (q : Fin 64) (i : Fin 100000)
    (hi : i.val = t.val * 10000 + p.val) :
    iblk1 (F := Ideal) V c 1 t (ix2 p q) = V c main_v4 (ix2 i q) := by
  obtain ⟨-, -, e0, e1, -⟩ := idx_facts1 t
  unfold iblk1
  rw [View.read_apply]
  show V c main_v4 _ = V c main_v4 _
  congr 1
  funext a
  apply Fin.ext
  match a with
  | ⟨0, _⟩ => show win1_1.index t (0 : Fin 2) * 10000 + 1 * p.val = i.val; rw [e0, hi]; omega
  | ⟨1, _⟩ => show win1_1.index t (1 : Fin 2) * 64 + 1 * q.val = q.val; rw [e1]; omega

/-- Entry (p, 0) of window 2's column block at point t is entry (10000 t + p, 0) of its array. -/
theorem iblk1_2_apply (c : Dev nD) (t : Fin cfg1.N) (p : Fin 10000) (i : Fin 100000)
    (hi : i.val = t.val * 10000 + p.val) :
    iblk1 (F := Ideal) V c 2 t (ix2 p (0 : Fin 1)) = V c main_v41 (ix2 i (0 : Fin 1)) := by
  obtain ⟨-, -, -, -, e0, e1, -⟩ := idx_facts1 t
  unfold iblk1
  rw [View.read_apply]
  show V c main_v41 _ = V c main_v41 _
  congr 1
  funext a
  apply Fin.ext
  match a with
  | ⟨0, _⟩ => show win1_2.index t (0 : Fin 2) * 10000 + 1 * p.val = i.val; rw [e0, hi]; omega
  | ⟨1, _⟩ => show win1_2.index t (1 : Fin 2) * 1 + 1 * (0 : Fin 1).val = (0 : Fin 1).val; rw [e1]; rfl

/-- Window 3's block is its whole one-row array at every point. -/
theorem iblk1_3_apply (c : Dev nD) (t : Fin cfg1.N) (q : Fin 64) :
    iblk1 (F := Ideal) V c 3 t (ix2 (0 : Fin 1) q) = V c main_v42 (ix2 (0 : Fin 1) q) := by
  obtain ⟨-, -, -, -, -, -, e0, e1, -⟩ := idx_facts1 t
  unfold iblk1
  rw [View.read_apply]
  show V c main_v42 _ = V c main_v42 _
  congr 1
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 64 + 1 * q.val = q.val; rw [e1]; omega

/-- Any [100000, 64] array read through the output window's block at point t, at (p, q), is the array at
    (10000 t + p, q). -/
theorem read1_4_apply (X : S100000x64.Idx → Elt Ideal .f32) (t : Fin cfg1.N) (p : Fin 10000) (q : Fin 64)
    (i : Fin 100000) (hi : i.val = t.val * 10000 + p.val) :
    ((cfg1.win 4).blk t).view.read (Elt Ideal) X (ix2 p q) = X (ix2 i q) := by
  obtain ⟨-, -, -, -, -, -, -, -, e0, e1⟩ := idx_facts1 t
  rw [View.read_apply]
  refine congrArg X (funext fun a => Fin.ext ?_)
  match a with
  | ⟨0, _⟩ => show win1_4.index t (0 : Fin 2) * 10000 + 1 * p.val = i.val; rw [e0, hi]; omega
  | ⟨1, _⟩ => show win1_4.index t (1 : Fin 2) * 64 + 1 * q.val = q.val; rw [e1]; omega

set_option maxHeartbeats 400000 in
/-- What point t writes back is block t of the host's expression of the arrays as the region finds them. -/
theorem flushed1_eq (c : Dev nD) (t : Fin cfg1.N) :
    (dat1 (F := Ideal) V c).flushed 4 t
      = ((cfg1.win 4).blk t).view.read (Elt Ideal) (G (V c main_v39) (V c main_v4) (V c main_v41) (V c main_v42)) := by
  show (cfg1.win 4).cut (grid1.coords t) ((dat1 (F := Ideal) V c).after 4 t) = _
  rw [after1_4]
  unfold out1_4
  rw [View.canon_unit_zero hz]
  simp only [View.ld_unit_zero (S := S10000x64) hz, View.ld_unit_zero (S := S10000x1) hz, View.ld_unit_zero (S := S1x64) hz]
  funext j
  obtain ⟨p, q, rfl⟩ : ∃ (p : Fin 10000) (q : Fin 64), j = ix2 p q := ⟨j 0, j 1, eq_ix2 j⟩
  have ht : t.val < 10 := Nat.lt_of_lt_of_eq t.isLt N_1
  have hp : p.val < 10000 := p.isLt
  obtain ⟨i, hi⟩ : ∃ i : Fin 100000, i.val = t.val * 10000 + p.val := ⟨⟨t.val * 10000 + p.val, by omega⟩, rfl⟩
  show k1_pay1 (iblk1 V c 0 t) (iblk1 V c 1 t) (iblk1 V c 2 t) (iblk1 V c 3 t) (ix2 p q) = _
  refine (pay1_apply (iblk1 V c 0 t) (iblk1 V c 1 t) (iblk1 V c 2 t) (iblk1 V c 3 t) p q).trans ?_
  refine Eq.trans ?_ (read1_4_apply (G (V c main_v39) (V c main_v4) (V c main_v41) (V c main_v42)) t p q i hi).symm
  rw [G_apply, iblk1_0_apply V c t p q i hi, iblk1_1_apply V c t p q i hi, iblk1_2_apply V c t p i hi,
    iblk1_3_apply V c t q]

/-- Every index of the output array lies in the block of the point its row falls in. -/
theorem cover1 (i : S100000x64.Idx) :
    ∃ t : Fin cfg1.N, (cfg1.win 4).flush t = true ∧ i ∈ ((cfg1.win 4).blk t).view.set := by
  have hi0 : (i 0).val < 100000 := idx2_lt0 i
  have hi1 : (i 1).val < 64 := idx2_lt1 i
  obtain ⟨t, ht⟩ : ∃ t : Fin cfg1.N, t.val = (i 0).val / 10000 :=
    ⟨⟨(i 0).val / 10000, Nat.lt_of_lt_of_eq (by omega : (i 0).val / 10000 < 10) N_1.symm⟩, rfl⟩
  obtain ⟨-, -, -, -, -, -, -, -, e0, e1⟩ := idx_facts1 t
  refine ⟨t, flush1_4 t, ?_⟩
  show i ∈ ((View.whole main_v43).slice (win1_4.rect t)).set
  rw [View.set_slice_whole, Rect.mem_set_unit]
  intro a
  match a with
  | ⟨0, _⟩ =>
    show win1_4.index t (0 : Fin 2) * 10000 ≤ (i 0).val ∧ (i 0).val < win1_4.index t (0 : Fin 2) * 10000 + 10000
    rw [e0, ht]; omega
  | ⟨1, _⟩ =>
    show win1_4.index t (1 : Fin 2) * 64 ≤ (i 1).val ∧ (i 1).val < win1_4.index t (1 : Fin 2) * 64 + 64
    rw [e1]; omega

/-- The result array of region 1 is the host's expression of the arrays the region finds. -/
theorem arr1_eq (c : Dev nD) :
    (dat1 (F := Ideal) V c).arrAt 4 cfg1.N = G (V c main_v39) (V c main_v4) (V c main_v41) (V c main_v42) :=
  (dat1 (F := Ideal) V c).arrAt_eq_of_cover 4 (G (V c main_v39) (V c main_v4) (V c main_v41) (V c main_v42))
    (fun t _ => flushed1_eq V c t) cover1

/-! ## Region 3 -/

/-- The printed index maps of region 3, decided over its grid: each row-blocked window sits at block (t, 0), the bias
    window at (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, q) of window 0's block at point t is entry (10000 t + p, q) of its array. -/
theorem iblk3_0_apply (c : Dev nD) (t : Fin cfg3.N) (p : Fin 10000) (q : Fin 64) (i : Fin 100000)
    (hi : i.val = t.val * 10000 + p.val) :
    iblk3 (F := Ideal) V c 0 t (ix2 p q) = V c main_v79 (ix2 i q) := by
  obtain ⟨e0, e1, -⟩ := idx_facts3 t
  unfold iblk3
  rw [View.read_apply]
  show V c main_v79 _ = V c main_v79 _
  congr 1
  funext a
  apply Fin.ext
  match a with
  | ⟨0, _⟩ => show win3_0.index t (0 : Fin 2) * 10000 + 1 * p.val = i.val; rw [e0, hi]; omega
  | ⟨1, _⟩ => show win3_0.index t (1 : Fin 2) * 64 + 1 * q.val = q.val; rw [e1]; omega

/-- Entry (p, q) of window 1's block at point t is entry (10000 t + p, q) of its array. -/
theorem iblk3_1_apply (c : Dev nD) (t : Fin cfg3.N) (p : Fin 10000) (q : Fin 64) (i : Fin 100000)
    (hi : i.val = t.val * 10000 + p.val) :
    iblk3 (F := Ideal) V c 1 t (ix2 p q) = V c main_v44 (ix2 i q) := by
  obtain ⟨-, -, e0, e1, -⟩ := idx_facts3 t
  unfold iblk3
  rw [View.read_apply]
  show V c main_v44 _ = V c main_v44 _
  congr 1
  funext a
  apply Fin.ext
  match a with
  | ⟨0, _⟩ => show win3_1.index t (0 : Fin 2) * 10000 + 1 * p.val = i.val; rw [e0, hi]; omega
  | ⟨1, _⟩ => show win3_1.index t (1 : Fin 2) * 64 + 1 * q.val = q.val; rw [e1]; omega

/-- Entry (p, 0) of window 2's column block at point t is entry (10000 t + p, 0) of its array. -/
theorem iblk3_2_apply (c : Dev nD) (t : Fin cfg3.N) (p : Fin 10000) (i : Fin 100000)
    (hi : i.val = t.val * 10000 + p.val) :
    iblk3 (F := Ideal) V c 2 t (ix2 p (0 : Fin 1)) = V c main_v81 (ix2 i (0 : Fin 1)) := by
  obtain ⟨-, -, -, -, e0, e1, -⟩ := idx_facts3 t
  unfold iblk3
  rw [View.read_apply]
  show V c main_v81 _ = V c main_v81 _
  congr 1
  funext a
  apply Fin.ext
  match a with
  | ⟨0, _⟩ => show win3_2.index t (0 : Fin 2) * 10000 + 1 * p.val = i.val; rw [e0, hi]; omega
  | ⟨1, _⟩ => show win3_2.index t (1 : Fin 2) * 1 + 1 * (0 : Fin 1).val = (0 : Fin 1).val; rw [e1]; rfl

/-- Window 3's block is its whole one-row array at every point. -/
theorem iblk3_3_apply (c : Dev nD) (t : Fin cfg3.N) (q : Fin 64) :
    iblk3 (F := Ideal) V c 3 t (ix2 (0 : Fin 1) q) = V c main_v82 (ix2 (0 : Fin 1) q) := by
  obtain ⟨-, -, -, -, -, -, e0, e1, -⟩ := idx_facts3 t
  unfold iblk3
  rw [View.read_apply]
  show V c main_v82 _ = V c main_v82 _
  congr 1
  funext a
  apply Fin.ext
  match a with
  | ⟨0, _⟩ => show win3_3.index t (0 : Fin 2) * 1 + 1 * (0 : Fin 1).val = (0 : Fin 1).val; rw [e0]; rfl
  | ⟨1, _⟩ => show win3_3.index t (1 : Fin 2) * 64 + 1 * q.val = q.val; rw [e1]; omega

/-- Any [100000, 64] array read through the output window's block at point t, at (p, q), is the array at
    (10000 t + p, q). -/
theorem read3_4_apply (X : S100000x64.Idx → Elt Ideal .f32) (t : Fin cfg3.N) (p : Fin 10000) (q : Fin 64)
    (i : Fin 100000) (hi : i.val = t.val * 10000 + p.val) :
    ((cfg3.win 4).blk t).view.read (Elt Ideal) X (ix2 p q) = X (ix2 i q) := by
  obtain ⟨-, -, -, -, -, -, -, -, e0, e1⟩ := idx_facts3 t
  rw [View.read_apply]
  refine congrArg X (funext fun a => Fin.ext ?_)
  match a with
  | ⟨0, _⟩ => show win3_4.index t (0 : Fin 2) * 10000 + 1 * p.val = i.val; rw [e0, hi]; omega
  | ⟨1, _⟩ => show win3_4.index t (1 : Fin 2) * 64 + 1 * q.val = q.val; rw [e1]; omega

set_option maxHeartbeats 400000 in
/-- What point t writes back is block t of the host's expression of the arrays as the region finds them. -/
theorem flushed3_eq (c : Dev nD) (t : Fin cfg3.N) :
    (dat3 (F := Ideal) V c).flushed 4 t
      = ((cfg3.win 4).blk t).view.read (Elt Ideal) (G (V c main_v79) (V c main_v44) (V c main_v81) (V c main_v82)) := by
  show (cfg3.win 4).cut (grid3.coords t) ((dat3 (F := Ideal) V c).after 4 t) = _
  rw [after3_4]
  unfold out3_4
  rw [View.canon_unit_zero hz]
  simp only [View.ld_unit_zero (S := S10000x64) hz, View.ld_unit_zero (S := S10000x1) hz, View.ld_unit_zero (S := S1x64) hz]
  funext j
  obtain ⟨p, q, rfl⟩ : ∃ (p : Fin 10000) (q : Fin 64), j = ix2 p q := ⟨j 0, j 1, eq_ix2 j⟩
  have ht : t.val < 10 := Nat.lt_of_lt_of_eq t.isLt N_3
  have hp : p.val < 10000 := p.isLt
  obtain ⟨i, hi⟩ : ∃ i : Fin 100000, i.val = t.val * 10000 + p.val := ⟨⟨t.val * 10000 + p.val, by omega⟩, rfl⟩
  show k3_pay1 (iblk3 V c 0 t) (iblk3 V c 1 t) (iblk3 V c 2 t) (iblk3 V c 3 t) (ix2 p q) = _
  refine (pay3_apply (iblk3 V c 0 t) (iblk3 V c 1 t) (iblk3 V c 2 t) (iblk3 V c 3 t) p q).trans ?_
  refine Eq.trans ?_ (read3_4_apply (G (V c main_v79) (V c main_v44) (V c main_v81) (V c main_v82)) t p q i hi).symm
  rw [G_apply, iblk3_0_apply V c t p q i hi, iblk3_1_apply V c t p q i hi, iblk3_2_apply V c t p i hi,
    iblk3_3_apply V c t q]

/-- Every index of the output array lies in the block of the point its row falls in. -/
theorem cover3 (i : S100000x64.Idx) :
    ∃ t : Fin cfg3.N, (cfg3.win 4).flush t = true ∧ i ∈ ((cfg3.win 4).blk t).view.set := by
  have hi0 : (i 0).val < 100000 := idx2_lt0 i
  have hi1 : (i 1).val < 64 := idx2_lt1 i
  obtain ⟨t, ht⟩ : ∃ t : Fin cfg3.N, t.val = (i 0).val / 10000 :=
    ⟨⟨(i 0).val / 10000, Nat.lt_of_lt_of_eq (by omega : (i 0).val / 10000 < 10) N_3.symm⟩, rfl⟩
  obtain ⟨-, -, -, -, -, -, -, -, e0, e1⟩ := idx_facts3 t
  refine ⟨t, flush3_4 t, ?_⟩
  show i ∈ ((View.whole main_v83).slice (win3_4.rect t)).set
  rw [View.set_slice_whole, Rect.mem_set_unit]
  intro a
  match a with
  | ⟨0, _⟩ =>
    show win3_4.index t (0 : Fin 2) * 10000 ≤ (i 0).val ∧ (i 0).val < win3_4.index t (0 : Fin 2) * 10000 + 10000
    rw [e0, ht]; omega
  | ⟨1, _⟩ =>
    show win3_4.index t (1 : Fin 2) * 64 ≤ (i 1).val ∧ (i 1).val < win3_4.index t (1 : Fin 2) * 64 + 64
    rw [e1]; omega

/-- The result array of region 3 is the host's expression of the arrays the region finds. -/
theorem arr3_eq (c : Dev nD) :
    (dat3 (F := Ideal) V c).arrAt 4 cfg3.N = G (V c main_v79) (V c main_v44) (V c main_v81) (V c main_v82) :=
  (dat3 (F := Ideal) V c).arrAt_eq_of_cover 4 (G (V c main_v79) (V c main_v44) (V c main_v81) (V c main_v82))
    (fun t _ => flushed3_eq V c t) cover3

theorem final1 (c : Dev nD) :
    (dat1 (F := Ideal) V c).arrAt 4 cfg1.N
      = maximumf (F := Ideal)
          (addf (addf (V c main_v39)
              (mulf (V c main_v4)
                (broadcastInDim Cert.ReferenceIdeal.S100000x64 ![0, 1] Cert.ReferenceIdeal.Gen.bcast_S100000x1_S100000x64_0_1 (V c main_v41))))
            (broadcastInDim Cert.ReferenceIdeal.S100000x64 ![0, 1] Cert.ReferenceIdeal.Gen.bcast_S1x64_S100000x64_0_1 (V c main_v42)))
          (broadcastInDim Cert.ReferenceIdeal.S100000x64 ![] Cert.ReferenceIdeal.Gen.bcast_S_S100000x64
            (constant (F := Ideal) Cert.ReferenceIdeal.S_ .f32 0x00000000#32)) := by
  exact arr1_eq V c

theorem final3 (c : Dev nD) :
    (dat3 (F := Ideal) V c).arrAt 4 cfg3.N
      = maximumf (F := Ideal)
          (addf (addf (V c main_v79)
              (mulf (V c main_v44)
                (broadcastInDim Cert.ReferenceIdeal.S100000x64 ![0, 1] Cert.ReferenceIdeal.Gen.bcast_S100000x1_S100000x64_0_1 (V c main_v81))))
            (broadcastInDim Cert.ReferenceIdeal.S100000x64 ![0, 1] Cert.ReferenceIdeal.Gen.bcast_S1x64_S100000x64_0_1 (V c main_v82)))
          (broadcastInDim Cert.ReferenceIdeal.S100000x64 ![] Cert.ReferenceIdeal.Gen.bcast_S_S100000x64
            (constant (F := Ideal) Cert.ReferenceIdeal.S_ .f32 0x00000000#32)) := by
  exact arr3_eq V c

end Cert.KernelIdeal.RegionCombine

end
-- ==== Proof.RegionLogSoftmax.lean ====
/-
  The last region: on each [10000, 64] row block of its input, with the whole [64, 16] weight and the whole [1, 16] bias
  row, the body stores the row-wise log-softmax of the linear layer's image of the block. Read at an index (p, q) of the
  block at point t, that store and the reference's last stage of its linear layer at (10000 t + p, q) are one expression
  of row 10000 t + p of the input: the log-softmax (`rowLS`) of the row's image (`zrow`). The blocks tile the result, so
  the result array ends holding the reference's array (`final4`).
-/
import proofs.«140760_j48129403519136_1_alg».proof.Defs
import proofs.«140760_j48129403519136_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«140760_j48129403519136_1_alg».proof.Proof.Gen.ReferenceIdeal
import proofs.«140760_j48129403519136_1_alg».proof.Proof.LogSoftmaxSpec
import proofs.«140760_j48129403519136_1_alg».proof.Proof.LibLayoutColumn

noncomputable section

open Idealize.ShloMosaic Idealize.ShloMosaic.TcCoe Idealize.SL.Sem
open Idealize.ShloMosaic.Pipeline (Dat)

namespace Cert.KernelIdeal.RegionLogSoftmax

open Cert.KernelIdeal Cert.KernelIdeal.Gen Idealize.ShloMosaic.ValueIdx

variable (V : (c : Dev nD) → (b : Ref sig .tc) → Buf (Elt Ideal) ((c : Thread nD τ).loc b))

/-! ## One row

The linear layer's image of one row, and the log-softmax of a row of sixteen extended reals. Both programs compute,
at every index (r, q), the second of the first of row r. -/

/-- A row's image under the linear layer: Σ_k x k · w(k, q) + b(0, q). -/
def zrow (xr : Fin 64 → EReal) (w : Vec Ideal S64x16 .f32) (b : Vec Ideal S1x16 .f32) (q : Fin 16) : EReal :=
  (∑ k : Fin 64, xr k * w (ix2 k q)) + b (ix2 (0 : Fin 1) q)

/-- The log-softmax of a row: each entry minus the row's maximum, minus the logarithm of the sum of the exponentials of
    those differences. -/
def rowLS (z : Fin 16 → EReal) (q : Fin 16) : EReal :=
  (z q - (Finset.univ : Finset (Fin 16)).fold max ⊥ z)
    - Ideal.log (∑ q' : Fin 16, Ideal.exp (z q' - (Finset.univ : Finset (Fin 16)).fold max ⊥ z))

/-- The word 0xFF800000 is −∞, the bottom of the extended reals. -/
theorem ofBits_neg_inf_f32 : Ideal.ofBits .f32 0xFF800000#32 = ⊥ := by
  simp [Ideal.ofBits, Ideal.ieee]

/-! ## The kernel's block -/

/-- The row maximum as the kernel takes it, broadcast back along the row: at (p, q) the fold of max from −∞ over row p. -/
theorem kmax_apply (z : FVec Ideal S10000x16 .f32) (hφ : FKind.Formats .f32)
    (hacc : (0xFF800000#32 : BitVec 32) = FKind.maximumf.neutral .f32 hφ) (p : Fin 10000) (q : Fin 16) :
    broadcastTo S10000x16 (shapeCast S10000x1 (multiReduction (F := Ideal) .maximumf [1] S10000 z 0xFF800000#32 reduces_S10000x16_S10000 hφ hacc)
        shapeCasts_S10000_S10000x1) broadcasts_S10000x1_S10000x16 (ix2 p q)
      = (Finset.univ : Finset (Fin 16)).fold max ⊥ (fun q' => z (ix2 p q')) := by
  refine (Cert.Lib.Layout.broadcastTo_a1_ab_apply _ broadcasts_S10000x1_S10000x16 p q).trans ?_
  refine (Cert.Lib.Layout.shapeCast_a_a1_apply _ shapeCasts_S10000_S10000x1 p 0).trans ?_
  refine (Ideal.multiReduction_maximumf_single z _ reduces_S10000x16_S10000 hφ hacc (ix1 p)).trans ?_
  show (Finset.univ : Finset (Fin 16)).fold max (Ideal.ofBits .f32 0xFF800000#32) _ = _
  rw [ofBits_neg_inf_f32]
  refine congrArg (fun f => (Finset.univ : Finset (Fin 16)).fold max ⊥ f) (funext fun q' => ?_)
  exact congrArg z (funext fun a => Fin.ext (by match a with | ⟨0, _⟩ => rfl | ⟨1, _⟩ => rfl))

/-- The row sum as the kernel takes it, as a column: at (p, u) the sum over row p. -/
theorem ksum_apply (e : FVec Ideal S10000x16 .f32) (hφ : FKind.Formats .f32)
    (hacc : (0x00000000#32 : BitVec 32) = FKind.add.neutral .f32 hφ) (p : Fin 10000) (u : Fin 1) :
    shapeCast S10000x1 (multiReduction (F := Ideal) .add [1] S10000 e 0x00000000#32 reduces_S10000x16_S10000 hφ hacc)
        shapeCasts_S10000_S10000x1 (ix2 p u)
      = ∑ q' : Fin 16, e (ix2 p q') := by
  refine (Cert.Lib.Layout.shapeCast_a_a1_apply _ shapeCasts_S10000_S10000x1 p u).trans ?_
  refine (Ideal.multiReduction_add_single e _ reduces_S10000x16_S10000 hφ hacc (ix1 p)).trans ?_
  show ∑ k : Fin 16, _ = _
  refine Finset.sum_congr rfl fun q' _ => ?_
  exact congrArg e (funext fun a => Fin.ext (by match a with | ⟨0, _⟩ => rfl | ⟨1, _⟩ => rfl))

/-- The operand indices of the kernel's dot at an output index and a contraction index, coordinate by coordinate. -/
theorem klhs_0 (i : S10000x16.Idx) (σ : dot_S10000x64_S64x16_S10000x16_1_0_0_1_n_n.contr.Idx) :
    (dot_S10000x64_S64x16_S10000x16_1_0_0_1_n_n.lhsIdx i σ 0).val = (i 0).val := by
  unfold DotDims.lhsIdx
  rw [dif_neg (show ¬(0 : Fin S10000x64.rank) ∈ dot_S10000x64_S64x16_S10000x16_1_0_0_1_n_n.lhsBatch by decide),
    dif_pos (show (0 : Fin S10000x64.rank) ∈ dot_S10000x64_S64x16_S10000x16_1_0_0_1_n_n.lhsNonContracting by decide)]
  rfl
theorem klhs_1 (i : S10000x16.Idx) (σ : dot_S10000x64_S64x16_S10000x16_1_0_0_1_n_n.contr.Idx) :
    (dot_S10000x64_S64x16_S10000x16_1_0_0_1_n_n.lhsIdx i σ 1).val = (σ ⟨0, by decide⟩).val :=
  dot_S10000x64_S64x16_S10000x16_1_0_0_1_n_n.lhsIdx_val_of_single rfl i σ
theorem krhs_0 (i : S10000x16.Idx) (σ : dot_S10000x64_S64x16_S10000x16_1_0_0_1_n_n.contr.Idx) :
    (dot_S10000x64_S64x16_S10000x16_1_0_0_1_n_n.rhsIdx i σ 0).val = (σ ⟨0, by decide⟩).val :=
  dot_S10000x64_S64x16_S10000x16_1_0_0_1_n_n.rhsIdx_val_of_single rfl i σ
theorem krhs_1 (i : S10000x16.Idx) (σ : dot_S10000x64_S64x16_S10000x16_1_0_0_1_n_n.contr.Idx) :
    (dot_S10000x64_S64x16_S10000x16_1_0_0_1_n_n.rhsIdx i σ 1).val = (i 1).val := by
  unfold DotDims.rhsIdx
  rw [dif_neg (show ¬(1 : Fin S64x16.rank) ∈ dot_S10000x64_S64x16_S10000x16_1_0_0_1_n_n.rhsBatch by decide),
    dif_pos (show (1 : Fin S64x16.rank) ∈ dot_S10000x64_S64x16_S10000x16_1_0_0_1_n_n.rhsNonContracting by decide)]
  rfl

/-- The kernel's linear layer at (p, q): the image of row p. -/
theorem kz_apply (x : Vec Ideal S10000x64 .f32) (w : Vec Ideal S64x16 .f32) (b : Vec Ideal S1x16 .f32) (p : Fin 10000) (q : Fin 16) :
    addf (F := Ideal)
        (matmul (F := Ideal) dot_S10000x64_S64x16_S10000x16_1_0_0_1_n_n none
          (truncf .bf16 (shapeCast S10000x64 x shapeCasts_S10000x64_S10000x64) bitsLt_bf16_f32)
          (truncf .bf16 w bitsLt_bf16_f32) (constant (F := Ideal) S10000x16 .f32 0x00000000#32))
        (broadcastTo S10000x16 (shapeCast S1x16 b shapeCasts_S1x16_S1x16) broadcasts_S1x16_S10000x16) (ix2 p q)
      = zrow (fun k => x (ix2 p k)) w b q := by
  rw [shapeCast_self, shapeCast_self]
  show FloatOps.matmul dot_S10000x64_S64x16_S10000x16_1_0_0_1_n_n none _ _ (constant (F := Ideal) S10000x16 .f32 0x00000000#32) (ix2 p q) + _ = _
  rw [Ideal.matmul_constant_zero_apply,
    ← Equiv.sum_comp (contrEquiv1 dot_S10000x64_S64x16_S10000x16_1_0_0_1_n_n 64 rfl rfl).symm]
  unfold zrow
  congr 1
  · refine Finset.sum_congr rfl fun k _ => ?_
    have hk := contrEquiv1_symm_val dot_S10000x64_S64x16_S10000x16_1_0_0_1_n_n 64 rfl rfl k
    have el : dot_S10000x64_S64x16_S10000x16_1_0_0_1_n_n.lhsIdx (ix2 p q) ((contrEquiv1 dot_S10000x64_S64x16_S10000x16_1_0_0_1_n_n 64 rfl rfl).symm k) = ix2 p k :=
      funext fun a => Fin.ext (by
        match a with
        | ⟨0, _⟩ => exact klhs_0 _ _
        | ⟨1, _⟩ => exact (klhs_1 _ _).trans hk)
    have er : dot_S10000x64_S64x16_S10000x16_1_0_0_1_n_n.rhsIdx (ix2 p q) ((contrEquiv1 dot_S10000x64_S64x16_S10000x16_1_0_0_1_n_n 64 rfl rfl).symm k) = ix2 k q :=
      funext fun a => Fin.ext (by
        match a with
        | ⟨0, _⟩ => exact (krhs_0 _ _).trans hk
        | ⟨1, _⟩ => exact krhs_1 _ _)
    rw [el, er]
    rfl
  · refine broadcastTo_apply b broadcasts_S1x16_S10000x16 (ix2 p q) (ix2 (0 : Fin 1) q) fun a => ?_
    match a with
    | ⟨0, _⟩ => rfl
    | ⟨1, _⟩ => rfl

/-- The kernel's last stage on any [10000, 16] block Z, at (p, q): the log-softmax of row p of Z. -/
theorem ktail_apply (Z : FVec Ideal S10000x16 .f32) (hφ : FKind.Formats .f32)
    (hm : (0xFF800000#32 : BitVec 32) = FKind.maximumf.neutral .f32 hφ)
    (ha : (0x00000000#32 : BitVec 32) = FKind.add.neutral .f32 hφ) (p : Fin 10000) (q : Fin 16) :
    subf (F := Ideal)
        (subf (F := Ideal) Z
          (broadcastTo S10000x16 (shapeCast S10000x1 (multiReduction (F := Ideal) .maximumf [1] S10000 Z 0xFF800000#32 reduces_S10000x16_S10000 hφ hm)
            shapeCasts_S10000_S10000x1) broadcasts_S10000x1_S10000x16))
        (broadcastTo S10000x16
          (log (F := Ideal) (shapeCast S10000x1
            (multiReduction (F := Ideal) .add [1] S10000
              (exp (F := Ideal) (subf (F := Ideal) Z
                (broadcastTo S10000x16 (shapeCast S10000x1 (multiReduction (F := Ideal) .maximumf [1] S10000 Z 0xFF800000#32 reduces_S10000x16_S10000 hφ hm)
                  shapeCasts_S10000_S10000x1) broadcasts_S10000x1_S10000x16)))
              0x00000000#32 reduces_S10000x16_S10000 hφ ha)
            shapeCasts_S10000_S10000x1))
          broadcasts_S10000x1_S10000x16) (ix2 p q)
      = rowLS (fun q' => Z (ix2 p q')) q := by
  refine (subf_apply _ _ (ix2 p q)).trans ?_
  unfold rowLS
  refine congrArg₂ (· - ·) ((subf_apply _ _ (ix2 p q)).trans (congrArg (Z (ix2 p q) - ·) (kmax_apply Z hφ hm p q))) ?_
  refine (Cert.Lib.Layout.broadcastTo_a1_ab_apply _ broadcasts_S10000x1_S10000x16 p q).trans ?_
  refine congrArg Ideal.log ((ksum_apply _ hφ ha p 0).trans (Finset.sum_congr rfl fun q' _ => ?_))
  exact congrArg (fun m => Ideal.exp (Z (ix2 p q') - m)) (kmax_apply Z hφ hm p q')

/-- THE BODY'S STORE at (p, q): the log-softmax of the linear layer's image of row p of the block. -/
theorem k4_pay1_apply (x : Vec Ideal S10000x64 .f32) (w : Vec Ideal S64x16 .f32) (b : Vec Ideal S1x16 .f32) (p : Fin 10000) (q : Fin 16) :
    k4_pay1 (F := Ideal) x w b (ix2 p q) = rowLS (zrow (fun k => x (ix2 p k)) w b) q := by
  unfold k4_pay1
  dsimp only
  refine (ktail_apply _ _ _ _ p q).trans ?_
  exact congrArg (fun f => rowLS f q) (funext fun q' => kz_apply x w b p q')

/-! ## The reference's array -/

/-- A [100000, 1] column broadcast along its unit axis reads, at (r, q), the column at r. -/
theorem hcol_apply {α : Type} (col : Cert.ReferenceIdeal.S100000x1.Idx → α) (r : Fin 100000) (q : Fin 16) :
    broadcastInDim Cert.ReferenceIdeal.S100000x16 ![0, 1] Cert.ReferenceIdeal.Gen.bcast_S100000x1_S100000x16_0_1 col (ix2 r q)
      = col (ix2 r (0 : Fin 1)) :=
  broadcastInDim_apply _ Cert.ReferenceIdeal.Gen.bcast_S100000x1_S100000x16_0_1 col (ix2 r q) (ix2 r (0 : Fin 1)) fun a => by
    match a with
    | ⟨0, _⟩ => show r.val = if (100000 : Nat) = 1 then 0 else r.val; rw [if_neg (by decide)]
    | ⟨1, _⟩ => show (0 : Nat) = if (1 : Nat) = 1 then 0 else q.val; rw [if_pos rfl]

/-- A [100000] vector as a [100000, 1] column reads, at (r, u), the vector at r. -/
theorem hvec_apply {α : Type} (v : Cert.ReferenceIdeal.S100000.Idx → α) (r : Fin 100000) (u : Fin 1) :
    broadcastInDim Cert.ReferenceIdeal.S100000x1 ![0] Cert.ReferenceIdeal.Gen.bcast_S100000_S100000x1_0 v (ix2 r u)
      = v (ix1 r) :=
  broadcastInDim_apply _ Cert.ReferenceIdeal.Gen.bcast_S100000_S100000x1_0 v (ix2 r u) (ix1 r) fun a => by
    match a with
    | ⟨0, _⟩ => show r.val = if (100000 : Nat) = 1 then 0 else r.val; rw [if_neg (by decide)]

/-- The reference's row maximum at row r: the fold of max from −∞ over the row (the second −∞ it joins changes nothing). -/
theorem rowMax_apply (z : FVec Ideal Cert.ReferenceIdeal.S100000x16 .f32) (r : Fin 100000) :
    Cert.Spec.rowMax z (ix1 r) = (Finset.univ : Finset (Fin 16)).fold max ⊥ (fun q' => z (ix2 r q')) := by
  have h1 : broadcastInDim Cert.ReferenceIdeal.S100000 ![] Cert.ReferenceIdeal.Gen.bcast_S_S100000
      (constant (F := Ideal) Cert.ReferenceIdeal.S_ .f32 0xFF800000#32) (ix1 r) = (⊥ : EReal) :=
    (broadcastInDim_apply _ Cert.ReferenceIdeal.Gen.bcast_S_S100000 _ (ix1 r) (fun a => a.elim0) (fun a => a.elim0)).trans ofBits_neg_inf_f32
  have h2 : Host.reduce (FloatOps.maximumf (F := Ideal)) z (constant (F := Ideal) Cert.ReferenceIdeal.S_ .f32 0xFF800000#32)
      Cert.ReferenceIdeal.Gen.reducesTo_S100000x16_S100000_d1 Cert.ReferenceIdeal.Gen.h_S_ (ix1 r)
      = (Finset.univ : Finset (Fin 16)).fold max ⊥ (fun q' => z (ix2 r q')) := by
    refine (Host.reduce_eq_fold_single (FloatOps.maximumf (F := Ideal)) z _ Cert.ReferenceIdeal.Gen.reducesTo_S100000x16_S100000_d1
      (by decide) Cert.ReferenceIdeal.Gen.h_S_ (ix1 r)).trans ?_
    show (Finset.univ : Finset (Fin 16)).fold max (Ideal.ofBits .f32 0xFF800000#32) _ = _
    rw [ofBits_neg_inf_f32]
    refine congrArg (fun f => (Finset.univ : Finset (Fin 16)).fold max ⊥ f) (funext fun q' => ?_)
    exact congrArg z (funext fun a => Fin.ext (by match a with | ⟨0, _⟩ => rfl | ⟨1, _⟩ => rfl))
  unfold Cert.Spec.rowMax
  refine (maximumf_apply _ _ (ix1 r)).trans ?_
  rw [h1, h2]
  exact max_eq_right bot_le

/-- The reference's shifted array at (r, q). -/
theorem shifted_apply (z : FVec Ideal Cert.ReferenceIdeal.S100000x16 .f32) (r : Fin 100000) (q : Fin 16) :
    Cert.Spec.shifted z (ix2 r q) = z (ix2 r q) - (Finset.univ : Finset (Fin 16)).fold max ⊥ (fun q' => z (ix2 r q')) := by
  unfold Cert.Spec.shifted
  refine (subf_apply _ _ (ix2 r q)).trans (congrArg (z (ix2 r q) - ·) ?_)
  exact (hcol_apply _ r q).trans ((hvec_apply _ r 0).trans (rowMax_apply z r))

/-- The reference's logarithm at an index is the extended reals' logarithm of the element. -/
theorem hostLog_apply {s : Shape} (x : FVec Ideal s .f32) (i : s.Idx) : Host.log (F := Ideal) x i = Ideal.log (x i) := rfl

/-- THE REFERENCE'S LAST STAGE at (r, q): the log-softmax of row r. -/
theorem logSoftmax_apply (z : FVec Ideal Cert.ReferenceIdeal.S100000x16 .f32) (r : Fin 100000) (q : Fin 16) :
    Cert.Spec.logSoftmax z (ix2 r q) = rowLS (fun q' => z (ix2 r q')) q := by
  have hsum : Host.reduceAdd (F := Ideal) (Host.exp (F := Ideal) (Cert.Spec.shifted z)) (constant (F := Ideal) Cert.ReferenceIdeal.S_ .f32 0x00000000#32)
      Cert.ReferenceIdeal.Gen.reducesTo_S100000x16_S100000_d1 Cert.ReferenceIdeal.Gen.h_S_ (ix1 r)
      = ∑ q' : Fin 16, Ideal.exp (z (ix2 r q') - (Finset.univ : Finset (Fin 16)).fold max ⊥ (fun q'' => z (ix2 r q''))) := by
    refine (Ideal.hostReduceAdd_single Cert.ReferenceIdeal.Gen.reducesTo_S100000x16_S100000_d1 (by decide) _ _ (ix1 r)).trans ?_
    show Ideal.ofBits .f32 0x00000000#32 + ∑ k : Fin 16, _ = _
    rw [Ideal.ofBits_zero_f32, zero_add]
    refine Finset.sum_congr rfl fun q' _ => ?_
    refine Eq.trans (congrArg (fun i => Ideal.exp (Cert.Spec.shifted z i))
      (funext fun a => Fin.ext (by match a with | ⟨0, _⟩ => rfl | ⟨1, _⟩ => rfl) : _ = ix2 r q')) ?_
    exact congrArg Ideal.exp (shifted_apply z r q')
  unfold Cert.Spec.logSoftmax rowLS
  refine (subf_apply _ _ (ix2 r q)).trans (congrArg₂ (· - ·) (shifted_apply z r q) ?_)
  refine (hcol_apply _ r q).trans ((hostLog_apply _ (ix2 r (0 : Fin 1))).trans (congrArg Ideal.log ((hvec_apply _ r 0).trans hsum)))

/-- The operand indices of the reference's dot at an output index and a contraction index, coordinate by coordinate. -/
theorem hlhs_0 (i : Cert.ReferenceIdeal.S100000x16.Idx) (σ : Cert.ReferenceIdeal.dot_S100000x64_S64x16_S100000x16_1_0_0_1_n_n.contr.Idx) :
    (Cert.ReferenceIdeal.dot_S100000x64_S64x16_S100000x16_1_0_0_1_n_n.lhsIdx i σ 0).val = (i 0).val := by
  unfold DotDims.lhsIdx
  rw [dif_neg (show ¬(0 : Fin Cert.ReferenceIdeal.S100000x64.rank) ∈ Cert.ReferenceIdeal.dot_S100000x64_S64x16_S100000x16_1_0_0_1_n_n.lhsBatch by decide),
    dif_pos (show (0 : Fin Cert.ReferenceIdeal.S100000x64.rank) ∈ Cert.ReferenceIdeal.dot_S100000x64_S64x16_S100000x16_1_0_0_1_n_n.lhsNonContracting by decide)]
  rfl
theorem hlhs_1 (i : Cert.ReferenceIdeal.S100000x16.Idx) (σ : Cert.ReferenceIdeal.dot_S100000x64_S64x16_S100000x16_1_0_0_1_n_n.contr.Idx) :
    (Cert.ReferenceIdeal.dot_S100000x64_S64x16_S100000x16_1_0_0_1_n_n.lhsIdx i σ 1).val = (σ ⟨0, by decide⟩).val :=
  Cert.ReferenceIdeal.dot_S100000x64_S64x16_S100000x16_1_0_0_1_n_n.lhsIdx_val_of_single rfl i σ
theorem hrhs_0 (i : Cert.ReferenceIdeal.S100000x16.Idx) (σ : Cert.ReferenceIdeal.dot_S100000x64_S64x16_S100000x16_1_0_0_1_n_n.contr.Idx) :
    (Cert.ReferenceIdeal.dot_S100000x64_S64x16_S100000x16_1_0_0_1_n_n.rhsIdx i σ 0).val = (σ ⟨0, by decide⟩).val :=
  Cert.ReferenceIdeal.dot_S100000x64_S64x16_S100000x16_1_0_0_1_n_n.rhsIdx_val_of_single rfl i σ
theorem hrhs_1 (i : Cert.ReferenceIdeal.S100000x16.Idx) (σ : Cert.ReferenceIdeal.dot_S100000x64_S64x16_S100000x16_1_0_0_1_n_n.contr.Idx) :
    (Cert.ReferenceIdeal.dot_S100000x64_S64x16_S100000x16_1_0_0_1_n_n.rhsIdx i σ 1).val = (i 1).val := by
  unfold DotDims.rhsIdx
  rw [dif_neg (show ¬(1 : Fin Cert.ReferenceIdeal.S64x16.rank) ∈ Cert.ReferenceIdeal.dot_S100000x64_S64x16_S100000x16_1_0_0_1_n_n.rhsBatch by decide),
    dif_pos (show (1 : Fin Cert.ReferenceIdeal.S64x16.rank) ∈ Cert.ReferenceIdeal.dot_S100000x64_S64x16_S100000x16_1_0_0_1_n_n.rhsNonContracting by decide)]
  rfl

/-- The reference's linear layer at (r, q): the image of row r of its input. -/
theorem hz_apply (X : FVec Ideal Cert.ReferenceIdeal.S100000x64 .f32) (W : FVec Ideal Cert.ReferenceIdeal.S64x16 .f32)
    (B : FVec Ideal Cert.ReferenceIdeal.S1x16 .f32) (r : Fin 100000) (q : Fin 16) :
    addf (F := Ideal)
        (Host.dotGeneral (F := Ideal) (φ₁ := .f32) (φ₂ := .f32) Cert.ReferenceIdeal.dot_S100000x64_S64x16_S100000x16_1_0_0_1_n_n none X W)
        (broadcastInDim Cert.ReferenceIdeal.S100000x16 ![0, 1] Cert.ReferenceIdeal.Gen.bcast_S1x16_S100000x16_0_1 B) (ix2 r q)
      = zrow (fun k => X (ix2 r k)) W B q := by
  refine (addf_apply _ _ (ix2 r q)).trans ?_
  unfold zrow
  refine congrArg₂ (· + ·) ?_ ?_
  · simp only [Host.dotGeneral]
    rw [Ideal.dotGeneral_apply,
      ← Equiv.sum_comp (contrEquiv1 Cert.ReferenceIdeal.dot_S100000x64_S64x16_S100000x16_1_0_0_1_n_n 64 rfl rfl).symm]
    refine Finset.sum_congr rfl fun k _ => ?_
    have hk := contrEquiv1_symm_val Cert.ReferenceIdeal.dot_S100000x64_S64x16_S100000x16_1_0_0_1_n_n 64 rfl rfl k
    have el : Cert.ReferenceIdeal.dot_S100000x64_S64x16_S100000x16_1_0_0_1_n_n.lhsIdx (ix2 r q)
        ((contrEquiv1 Cert.ReferenceIdeal.dot_S100000x64_S64x16_S100000x16_1_0_0_1_n_n 64 rfl rfl).symm k) = ix2 r k :=
      funext fun a => Fin.ext (by
        match a with
        | ⟨0, _⟩ => exact hlhs_0 _ _
        | ⟨1, _⟩ => exact (hlhs_1 _ _).trans hk)
    have er : Cert.ReferenceIdeal.dot_S100000x64_S64x16_S100000x16_1_0_0_1_n_n.rhsIdx (ix2 r q)
        ((contrEquiv1 Cert.ReferenceIdeal.dot_S100000x64_S64x16_S100000x16_1_0_0_1_n_n 64 rfl rfl).symm k) = ix2 k q :=
      funext fun a => Fin.ext (by
        match a with
        | ⟨0, _⟩ => exact (hrhs_0 _ _).trans hk
        | ⟨1, _⟩ => exact hrhs_1 _ _)
    rw [el, er]
  · refine broadcastInDim_apply _ Cert.ReferenceIdeal.Gen.bcast_S1x16_S100000x16_0_1 B (ix2 r q) (ix2 (0 : Fin 1) q) fun a => ?_
    match a with
    | ⟨0, _⟩ => show (0 : Nat) = if (1 : Nat) = 1 then 0 else r.val; rw [if_pos rfl]
    | ⟨1, _⟩ => show q.val = if (16 : Nat) = 1 then 0 else q.val; rw [if_neg (by decide)]

/-! ## From blocks to the array -/

theorem hz : (![0, 0] : Fin 2 → Nat) = fun _ => 0 := funext fun a => by fin_cases a <;> rfl

/-- The printed index maps, decided over the grid: the row-blocked windows (the input 0 and the output 3) sit at block
    (t, 0) at point t, the weight and the bias windows at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input window's block at point t is rows 10000 t … 10000 t + 9999 of its array. -/
theorem iblk0_apply (c : Dev nD) (t : Fin cfg4.N) (p : Fin 10000) (k : Fin 64) (ht : t.val * 10000 + p.val < 100000) :
    (iblk4 (F := Ideal) V c 0 t : Vec Ideal S10000x64 .f32) (ix2 p k)
      = (V c main_v95 : S100000x64.Idx → Elt Ideal .f32) (ix2 ⟨t.val * 10000 + p.val, ht⟩ k) := by
  obtain ⟨e0, e1, -⟩ := idx_facts t
  unfold iblk4
  rw [View.read_apply]
  show V c main_v95 _ = V c main_v95 _
  congr 1
  funext a
  apply Fin.ext
  match a with
  | ⟨0, _⟩ => show win4_0.index t 0 * 10000 + 1 * p.val = t.val * 10000 + p.val; rw [e0]; omega
  | ⟨1, _⟩ => show win4_0.index t 1 * 64 + 1 * k.val = k.val; rw [e1]; omega

/-- The weight window's block is the whole weight at every point. -/
theorem iblk1_eq (c : Dev nD) (t : Fin cfg4.N) :
    (iblk4 (F := Ideal) V c 1 t : Vec Ideal S64x16 .f32) = V c main_arg7 := by
  obtain ⟨-, -, e0, e1, -⟩ := idx_facts t
  unfold iblk4
  funext j
  rw [View.read_apply]
  show V c main_arg7 _ = V c main_arg7 j
  congr 1
  funext a
  apply Fin.ext
  match a with
  | ⟨0, _⟩ => show win4_1.index t 0 * 64 + 1 * (j 0).val = (j 0).val; rw [e0]; omega
  | ⟨1, _⟩ => show win4_1.index t 1 * 16 + 1 * (j 1).val = (j 1).val; rw [e1]; omega

/-- The bias window's block is the whole bias row at every point. -/
theorem iblk2_eq (c : Dev nD) (t : Fin cfg4.N) :
    (iblk4 (F := Ideal) V c 2 t : Vec Ideal S1x16 .f32) = V c main_v96 := by
  obtain ⟨-, -, -, -, e0, e1, -⟩ := idx_facts t
  unfold iblk4
  funext j
  rw [View.read_apply]
  show V c main_v96 _ = V c main_v96 j
  congr 1
  funext a
  apply Fin.ext
  match a with
  | ⟨0, _⟩ => show win4_2.index t 0 * 1 + 1 * (j 0).val = (j 0).val; rw [e0]; omega
  | ⟨1, _⟩ => show win4_2.index t 1 * 16 + 1 * (j 1).val = (j 1).val; rw [e1]; omega

/-- What the result array ends holding: the reference's last stage of its linear layer of the arrays the region finds. -/
abbrev G (c : Dev nD) : FVec Ideal Cert.ReferenceIdeal.S100000x16 .f32 :=
  Cert.Spec.logSoftmax
    (addf (F := Ideal)
      (Host.dotGeneral (F := Ideal) (φ₁ := .f32) (φ₂ := .f32) Cert.ReferenceIdeal.dot_S100000x64_S64x16_S100000x16_1_0_0_1_n_n none
        (V c main_v95) (V c main_arg7))
      (broadcastInDim Cert.ReferenceIdeal.S100000x16 ![0, 1] Cert.ReferenceIdeal.Gen.bcast_S1x16_S100000x16_0_1 (V c main_v96)))

/-- WHAT POINT t WRITES BACK is block t of that array: at (p, q) of the block both are the log-softmax of the linear
    layer's image of row 10000 t + p of the input. -/
theorem flushed_eq (c : Dev nD) (t : Fin cfg4.N) :
    (dat4 (F := Ideal) V c).flushed 3 t = ((cfg4.win 3).blk t).view.read (Elt Ideal) (G V c) := by
  show (cfg4.win 3).cut (grid4.coords t) ((dat4 (F := Ideal) V c).after 3 t) = _
  rw [after4_3]
  unfold out4_3
  rw [View.canon_unit_zero hz]
  simp only [View.ld_unit_zero (S := S10000x64) hz, View.ld_unit_zero (S := S64x16) hz, View.ld_unit_zero (S := S1x16) hz]
  obtain ⟨-, -, -, -, -, -, e0, e1⟩ := idx_facts t
  have htl : t.val < 10 := lt_of_lt_of_eq t.isLt N_4
  funext j
  obtain ⟨p, q, rfl⟩ : ∃ (p : Fin 10000) (q : Fin 16), j = ix2 p q := ⟨j 0, j 1, eq_ix2 j⟩
  have ht : t.val * 10000 + p.val < 100000 := by omega
  show k4_pay1 (F := Ideal) (iblk4 V c 0 t) (iblk4 V c 1 t) (iblk4 V c 2 t) (ix2 p q) = G V c (((cfg4.win 3).blk t).view.emb (ix2 p q))
  have hemb : ((cfg4.win 3).blk t).view.emb (ix2 p q) = (ix2 ⟨t.val * 10000 + p.val, ht⟩ q : S100000x16.Idx) := by
    funext a
    apply Fin.ext
    match a with
    | ⟨0, _⟩ => show win4_3.index t 0 * 10000 + 1 * p.val = t.val * 10000 + p.val; rw [e0]; omega
    | ⟨1, _⟩ => show win4_3.index t 1 * 16 + 1 * q.val = q.val; rw [e1]; omega
  refine Eq.trans ?_ (congrArg (G V c) hemb).symm
  refine (k4_pay1_apply _ _ _ p q).trans ?_
  refine Eq.trans ?_ (logSoftmax_apply _ ⟨t.val * 10000 + p.val, ht⟩ q).symm
  refine congrArg (fun f => rowLS f q) (funext fun q' => ?_)
  refine Eq.trans ?_ (hz_apply _ _ _ ⟨t.val * 10000 + p.val, ht⟩ q').symm
  rw [iblk1_eq, iblk2_eq]
  exact congrArg (fun xr => zrow xr (V c main_arg7) (V c main_v96) q') (funext fun k => iblk0_apply V c t p k ht)

/-- Every index of the [100000, 16] result lies in the block of the point its row falls in. -/
theorem cover (i : S100000x16.Idx) :
    ∃ t : Fin cfg4.N, (cfg4.win 3).flush t = true ∧ i ∈ ((cfg4.win 3).blk t).view.set := by
  have hi0 : (i 0).val < 100000 := idx2_lt0 i
  have hi1 : (i 1).val < 16 := idx2_lt1 i
  obtain ⟨t, htv⟩ : ∃ t : Fin cfg4.N, t.val = (i 0).val / 10000 :=
    ⟨⟨(i 0).val / 10000, by rw [show cfg4.N = 10 from N_4]; omega⟩, rfl⟩
  obtain ⟨-, -, -, -, -, -, e0, e1⟩ := idx_facts t
  refine ⟨t, flush4_3 t, ?_⟩
  show i ∈ ((View.whole main_v97).slice (win4_3.rect t)).set
  rw [View.set_slice_whole, Rect.mem_set_unit]
  intro a
  match a with
  | ⟨0, _⟩ =>
    show win4_3.index t 0 * 10000 ≤ (i 0).val ∧ (i 0).val < win4_3.index t 0 * 10000 + 10000
    rw [e0, htv]; omega
  | ⟨1, _⟩ =>
    show win4_3.index t 1 * 16 ≤ (i 1).val ∧ (i 1).val < win4_3.index t 1 * 16 + 16
    rw [e1]; omega

theorem final4 (c : Dev nD) :
    (dat4 (F := Ideal) V c).arrAt 3 cfg4.N
      = Cert.Spec.logSoftmax
          (addf (F := Ideal)
            (Host.dotGeneral (F := Ideal) (φ₁ := .f32) (φ₂ := .f32) Cert.ReferenceIdeal.dot_S100000x64_S64x16_S100000x16_1_0_0_1_n_n none
              (V c main_v95) (V c main_arg7))
            (broadcastInDim Cert.ReferenceIdeal.S100000x16 ![0, 1] Cert.ReferenceIdeal.Gen.bcast_S1x16_S100000x16_0_1 (V c main_v96))) :=
  (dat4 (F := Ideal) V c).arrAt_eq_of_cover 3 (G V c) (fun t _ => flushed_eq V c t) (fun i => cover i)

end Cert.KernelIdeal.RegionLogSoftmax

end
-- ==== Proof.KernelRun.lean ====
/-
  The idealized kernel's run with its result named.  Every weakly fair execution of @main ends with each unscoped
  buffer at the last boundary's contents; read at the result buffer that is the fold's value there, and read at an
  argument it is the launch contents.
-/
import proofs.«140760_j48129403519136_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    buffer ends at the last boundary's contents and the argument arrays end as launched. -/
theorem run : θ_run defs (onTc (τ := τ) (main (F := F))) ⟨m, fun _ => 0, ρ⟩ (fun r => ∀ c : Dev nD,
      r.2.mem ((c.tc : Thread nD τ).loc main_v97) = W9 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v97 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.Named

end
-- ==== Proof.LibColumnCast.lean ====
import Idealize.ShloMosaic.Lib.Pipeline.Value
import Idealize.ShloMosaic.Lib.ValueIdx
import Idealize.ShloMosaic.Lib.ValueLayout
import Idealize.ShloMosaic.PureOps.ShapeOps

namespace Cert.ColumnForms

open Idealize.ShloMosaic Idealize.ShloMosaic.ValueIdx

/-- A vector of extent `n` made a column `[n, 1]` by a shape cast, or by a broadcast that sends its one axis to the
    rows, is the same array: both read the vector at the row. Entry `(r, 0)` of the column has row-major position
    `r * 1 + 0 = r`, the position of `r` in the vector; and the broadcast reads the operand at the row coordinate
    (at `0` when the extent is one, where the row coordinate is `0` too). -/
theorem reshape_col_eq_bcast {α : Type} (n : Nat) (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ (![0] : Fin 1 → Fin 2)) :
    shapeCast ⟨2, ![n, 1]⟩ x hc = broadcastInDim ⟨2, ![n, 1]⟩ ![0] hb x := by
  funext j
  have h0 : (j 0).val < n := idx2_lt0 j
  have h1 : (j 1).val < 1 := idx2_lt1 j
  refine (shapeCast_apply x hc j (ix1 (j 0)) ?_).trans (broadcastInDim_apply ![0] hb x j (ix1 (j 0)) ?_).symm
  · rw [Shape.rowMajor_val_one, Shape.rowMajor_val_two]
    show (j 0).val = (j 0).val * 1 + (j 1).val
    omega
  · intro a
    match a with
    | ⟨0, _⟩ =>
      show (j 0).val = if n = 1 then 0 else (j 0).val
      split <;> omega

end Cert.ColumnForms
-- ==== Proof.LibReshapeRow.lean ====
/-
  A vector reshaped to a one-row matrix is the vector broadcast along a new leading axis: jax's `b.reshape(1, d)`
  (a `stablehlo.reshape` [d] → [1, d]) and the row jnp's broadcasting makes of `b` against an [n, d] array
  (a `stablehlo.broadcast_in_dim` with dims = [1]) hold the same entry at every index, for any element type.
-/
import Idealize.ShloMosaic.Lib.Pipeline.Value

namespace Cert.Lib.ReshapeRow

open Idealize.ShloMosaic

/-- `reshape` of a [d] vector to [1, d] and `broadcast_in_dim` with dims = [1] read the same entry at every index. -/
theorem reshape_row_eq_broadcast {α : Type} (d : Nat) (hd : d ≠ 1) (b : (⟨1, ![d]⟩ : Shape).Idx → α)
    (h : (⟨1, ![d]⟩ : Shape).ShapeCasts ⟨2, ![1, d]⟩) (h' : (⟨1, ![d]⟩ : Shape).BroadcastsInDim ⟨2, ![1, d]⟩ (![1] : Fin 1 → Fin 2)) :
    shapeCast (⟨2, ![1, d]⟩ : Shape) b h = broadcastInDim (⟨2, ![1, d]⟩ : Shape) ![1] h' b := by
  funext j
  rw [shapeCast_addUnit_apply (n := 1) ![d] b h j]
  refine (broadcastInDim_apply (s := ⟨1, ![d]⟩) (t := ⟨2, ![1, d]⟩) ![1] h' b j (fun a => j a.succ) (fun a => ?_)).symm
  have ha : a = 0 := Subsingleton.elim _ _
  subst ha
  rw [if_neg (by simpa using hd)]
  rfl

end Cert.Lib.ReshapeRow
-- ==== Proof.KernelHost.lean ====
/-
  The idealized kernel's four stretches of host operations, read at the buffers the regions take, from ANY buffer
  contents A the stretch starts from: the edge list's two rows; the aggregation glue of a layer (weighted neighbour
  sums, the dinv² column, the bias row); the mean pooling and the classifier's bias row.  A vector reshaped to a
  column [n, 1] or to a row [1, d] is the corresponding broadcast.  Buffers a stretch does not write keep their
  contents.
-/
import proofs.«140760_j48129403519136_1_alg».proof.Proof.Gen.KernelIdeal.Frame
import proofs.«140760_j48129403519136_1_alg».proof.Proof.ModelSpec
import proofs.«140760_j48129403519136_1_alg».proof.Proof.LibColumnCast
import proofs.«140760_j48129403519136_1_alg».proof.Proof.LibReshapeRow
import Idealize.ShloMosaic.Lib.StableHlo.Run

noncomputable section

namespace Cert.KernelIdeal.HostEval

open Cert.KernelIdeal Cert.KernelIdeal.Gen Idealize.ShloMosaic Idealize.ShloMosaic.StableHlo

variable (A : Valuation τ sig (Elt Ideal))

/-! ## The edge list's rows -/

theorem h0_src : after (hostOps0 (F := Ideal)) A (Proc.devRef .tc main_v1) = Cert.Spec.srcOf (A (Proc.devRef .tc main_arg1)) := by
  after_results
  unfold Cert.Spec.srcOf
  rfl

theorem h0_dst : after (hostOps0 (F := Ideal)) A (Proc.devRef .tc main_v3) = Cert.Spec.dstOf (A (Proc.devRef .tc main_arg1)) := by
  after_results
  unfold Cert.Spec.dstOf
  rfl

theorem h0_arg0 : after (hostOps0 (F := Ideal)) A (Proc.devRef .tc main_arg0) = A (Proc.devRef .tc main_arg0) := by after_results_simp
theorem h0_arg2 : after (hostOps0 (F := Ideal)) A (Proc.devRef .tc main_arg2) = A (Proc.devRef .tc main_arg2) := by after_results_simp
theorem h0_arg3 : after (hostOps0 (F := Ideal)) A (Proc.devRef .tc main_arg3) = A (Proc.devRef .tc main_arg3) := by after_results_simp
theorem h0_arg4 : after (hostOps0 (F := Ideal)) A (Proc.devRef .tc main_arg4) = A (Proc.devRef .tc main_arg4) := by after_results_simp
theorem h0_arg5 : after (hostOps0 (F := Ideal)) A (Proc.devRef .tc main_arg5) = A (Proc.devRef .tc main_arg5) := by after_results_simp
theorem h0_arg6 : after (hostOps0 (F := Ideal)) A (Proc.devRef .tc main_arg6) = A (Proc.devRef .tc main_arg6) := by after_results_simp
theorem h0_arg7 : after (hostOps0 (F := Ideal)) A (Proc.devRef .tc main_arg7) = A (Proc.devRef .tc main_arg7) := by after_results_simp
theorem h0_arg8 : after (hostOps0 (F := Ideal)) A (Proc.devRef .tc main_arg8) = A (Proc.devRef .tc main_arg8) := by after_results_simp

/-! ## The first layer's glue -/

set_option maxHeartbeats 4000000 in
theorem h1_agg : after (hostOps1 (F := Ideal)) A (Proc.devRef .tc main_v39)
    = Cert.Spec.agg (A (Proc.devRef .tc main_v4)) (A (Proc.devRef .tc main_v1)) (A (Proc.devRef .tc main_v3)) := by
  after_results_simp
  rfl

set_option maxHeartbeats 4000000 in
theorem h1_col : after (hostOps1 (F := Ideal)) A (Proc.devRef .tc main_v41) = Cert.Spec.selfCol (A (Proc.devRef .tc main_v3)) := by
  after_results_simp
  refine (funext fun i => rfl : _ = shapeCast S100000x1
    (mulf (F := Ideal) (Cert.Spec.dinv (A (Proc.devRef .tc main_v3))) (Cert.Spec.dinv (A (Proc.devRef .tc main_v3)))) shapeCasts_S100000_S100000x1).trans ?_
  exact Cert.ColumnForms.reshape_col_eq_bcast 100000 _ _ _

set_option maxHeartbeats 4000000 in
theorem h1_row : after (hostOps1 (F := Ideal)) A (Proc.devRef .tc main_v42) = Cert.Spec.biasRow (A (Proc.devRef .tc main_arg4)) := by
  after_results_simp
  refine (funext fun i => rfl : _ = shapeCast S1x64 (A (Proc.devRef .tc main_arg4)) shapeCasts_S64_S1x64).trans ?_
  exact Cert.Lib.ReshapeRow.reshape_row_eq_broadcast 64 (by decide) _ _ _

theorem h1_v4 : after (hostOps1 (F := Ideal)) A (Proc.devRef .tc main_v4) = A (Proc.devRef .tc main_v4) := by after_results_simp
theorem h1_v1 : after (hostOps1 (F := Ideal)) A (Proc.devRef .tc main_v1) = A (Proc.devRef .tc main_v1) := by after_results_simp
theorem h1_v3 : after (hostOps1 (F := Ideal)) A (Proc.devRef .tc main_v3) = A (Proc.devRef .tc main_v3) := by after_results_simp
theorem h1_arg2 : after (hostOps1 (F := Ideal)) A (Proc.devRef .tc main_arg2) = A (Proc.devRef .tc main_arg2) := by after_results_simp
theorem h1_arg5 : after (hostOps1 (F := Ideal)) A (Proc.devRef .tc main_arg5) = A (Proc.devRef .tc main_arg5) := by after_results_simp
theorem h1_arg6 : after (hostOps1 (F := Ideal)) A (Proc.devRef .tc main_arg6) = A (Proc.devRef .tc main_arg6) := by after_results_simp
theorem h1_arg7 : after (hostOps1 (F := Ideal)) A (Proc.devRef .tc main_arg7) = A (Proc.devRef .tc main_arg7) := by after_results_simp
theorem h1_arg8 : after (hostOps1 (F := Ideal)) A (Proc.devRef .tc main_arg8) = A (Proc.devRef .tc main_arg8) := by after_results_simp

/-! ## The second layer's glue -/

set_option maxHeartbeats 4000000 in
theorem h3_agg : after (hostOps3 (F := Ideal)) A (Proc.devRef .tc main_v79)
    = Cert.Spec.agg (A (Proc.devRef .tc main_v44)) (A (Proc.devRef .tc main_v1)) (A (Proc.devRef .tc main_v3)) := by
  after_results_simp
  rfl

set_option maxHeartbeats 4000000 in
theorem h3_col : after (hostOps3 (F := Ideal)) A (Proc.devRef .tc main_v81) = Cert.Spec.selfCol (A (Proc.devRef .tc main_v3)) := by
  after_results_simp
  refine (funext fun i => rfl : _ = shapeCast S100000x1
    (mulf (F := Ideal) (Cert.Spec.dinv (A (Proc.devRef .tc main_v3))) (Cert.Spec.dinv (A (Proc.devRef .tc main_v3)))) shapeCasts_S100000_S100000x1).trans ?_
  exact Cert.ColumnForms.reshape_col_eq_bcast 100000 _ _ _

set_option maxHeartbeats 4000000 in
theorem h3_row : after (hostOps3 (F := Ideal)) A (Proc.devRef .tc main_v82) = Cert.Spec.biasRow (A (Proc.devRef .tc main_arg6)) := by
  after_results_simp
  refine (funext fun i => rfl : _ = shapeCast S1x64 (A (Proc.devRef .tc main_arg6)) shapeCasts_S64_S1x64).trans ?_
  exact Cert.Lib.ReshapeRow.reshape_row_eq_broadcast 64 (by decide) _ _ _

theorem h3_v44 : after (hostOps3 (F := Ideal)) A (Proc.devRef .tc main_v44) = A (Proc.devRef .tc main_v44) := by after_results_simp
theorem h3_arg2 : after (hostOps3 (F := Ideal)) A (Proc.devRef .tc main_arg2) = A (Proc.devRef .tc main_arg2) := by after_results_simp
theorem h3_arg7 : after (hostOps3 (F := Ideal)) A (Proc.devRef .tc main_arg7) = A (Proc.devRef .tc main_arg7) := by after_results_simp
theorem h3_arg8 : after (hostOps3 (F := Ideal)) A (Proc.devRef .tc main_arg8) = A (Proc.devRef .tc main_arg8) := by after_results_simp

/-! ## Pooling and the classifier's bias row -/

set_option maxHeartbeats 1000000 in
theorem h4_pool : after (hostOps4 (F := Ideal)) A (Proc.devRef .tc main_v95)
    = Cert.Spec.pool (A (Proc.devRef .tc main_v83)) (A (Proc.devRef .tc main_arg2)) := by
  after_results
  rfl

theorem h4_row : after (hostOps4 (F := Ideal)) A (Proc.devRef .tc main_v96) = Cert.Spec.headRow (A (Proc.devRef .tc main_arg8)) := by
  after_results
  refine (funext fun i => rfl : _ = shapeCast S1x16 (A (Proc.devRef .tc main_arg8)) shapeCasts_S16_S1x16).trans ?_
  exact Cert.Lib.ReshapeRow.reshape_row_eq_broadcast 16 (by decide) _ _ _

theorem h4_arg7 : after (hostOps4 (F := Ideal)) A (Proc.devRef .tc main_arg7) = A (Proc.devRef .tc main_arg7) := by after_results_simp

end Cert.KernelIdeal.HostEval

end
-- ==== Proof.KernelFold.lean ====
/-
  The idealized kernel's buffer contents boundary by boundary: from the launch contents through the four stretches of
  host operations and the five regions.  What each region leaves is taken as a hypothesis (the region claims); the host
  stretches are read by their lemmas; a buffer that a segment does not write is carried along.  At the last boundary
  the result buffer is the network `Cert.Spec.model` of the launch contents.
-/
import proofs.«140760_j48129403519136_1_alg».proof.Proof.Gen.KernelIdeal.Frame
import proofs.«140760_j48129403519136_1_alg».proof.Proof.ModelSpec
import proofs.«140760_j48129403519136_1_alg».proof.Proof.RegionClaims
import proofs.«140760_j48129403519136_1_alg».proof.Proof.KernelHost

noncomputable section

namespace Cert.KernelIdeal.FoldEval

open Cert.KernelIdeal Cert.KernelIdeal.Gen Cert.KernelIdeal.RegionClaims Cert.KernelIdeal.HostEval
open Idealize.ShloMosaic Idealize.ShloMosaic.TcCoe Idealize.SL.Sem

variable (m : (ℓ : Loc nD τ sig) → Buf (Elt Ideal) ℓ) (ρ : Dev nD → PrngReg) (c : Dev nD)

/-! ## Entering region 0 -/

theorem b1_arg0 : W1 m ρ c (Proc.devRef .tc main_arg0) = (W0 m ρ c (Proc.devRef .tc main_arg0)) := h0_arg0 (W0 m ρ c)
theorem b1_arg3 : W1 m ρ c (Proc.devRef .tc main_arg3) = (W0 m ρ c (Proc.devRef .tc main_arg3)) := h0_arg3 (W0 m ρ c)
theorem b1_src : W1 m ρ c (Proc.devRef .tc main_v1) = Cert.Spec.srcOf (W0 m ρ c (Proc.devRef .tc main_arg1)) := h0_src (W0 m ρ c)
theorem b1_dst : W1 m ρ c (Proc.devRef .tc main_v3) = Cert.Spec.dstOf (W0 m ρ c (Proc.devRef .tc main_arg1)) := h0_dst (W0 m ρ c)

/-! ## After region 0 -/

theorem b2_h (hR0 : Matmul0) : W2 m ρ c (Proc.devRef .tc main_v4) = Cert.Spec.proj1 (W0 m ρ c (Proc.devRef .tc main_arg0)) (W0 m ρ c (Proc.devRef .tc main_arg3)) := by
  refine (W2_arr m ρ c 2).trans ((hR0 (V1 m ρ) c).trans ?_)
  show Cert.Spec.proj1 (W1 m ρ c (Proc.devRef .tc main_arg0)) (W1 m ρ c (Proc.devRef .tc main_arg3)) = _
  rw [b1_arg0, b1_arg3]

theorem b2_src : W2 m ρ c (Proc.devRef .tc main_v1) = Cert.Spec.srcOf (W0 m ρ c (Proc.devRef .tc main_arg1)) :=
  (W2_of_ne m ρ c main_v1 (by decide)).trans (b1_src m ρ c)
theorem b2_dst : W2 m ρ c (Proc.devRef .tc main_v3) = Cert.Spec.dstOf (W0 m ρ c (Proc.devRef .tc main_arg1)) :=
  (W2_of_ne m ρ c main_v3 (by decide)).trans (b1_dst m ρ c)
theorem b2_arg2 : W2 m ρ c (Proc.devRef .tc main_arg2) = (W0 m ρ c (Proc.devRef .tc main_arg2)) :=
  (W2_of_ne m ρ c main_arg2 (by decide)).trans (h0_arg2 (W0 m ρ c))
theorem b2_arg4 : W2 m ρ c (Proc.devRef .tc main_arg4) = (W0 m ρ c (Proc.devRef .tc main_arg4)) :=
  (W2_of_ne m ρ c main_arg4 (by decide)).trans (h0_arg4 (W0 m ρ c))
theorem b2_arg5 : W2 m ρ c (Proc.devRef .tc main_arg5) = (W0 m ρ c (Proc.devRef .tc main_arg5)) :=
  (W2_of_ne m ρ c main_arg5 (by decide)).trans (h0_arg5 (W0 m ρ c))
theorem b2_arg6 : W2 m ρ c (Proc.devRef .tc main_arg6) = (W0 m ρ c (Proc.devRef .tc main_arg6)) :=
  (W2_of_ne m ρ c main_arg6 (by decide)).trans (h0_arg6 (W0 m ρ c))
theorem b2_arg7 : W2 m ρ c (Proc.devRef .tc main_arg7) = (W0 m ρ c (Proc.devRef .tc main_arg7)) :=
  (W2_of_ne m ρ c main_arg7 (by decide)).trans (h0_arg7 (W0 m ρ c))
theorem b2_arg8 : W2 m ρ c (Proc.devRef .tc main_arg8) = (W0 m ρ c (Proc.devRef .tc main_arg8)) :=
  (W2_of_ne m ρ c main_arg8 (by decide)).trans (h0_arg8 (W0 m ρ c))

/-! ## Entering region 1 -/

theorem b3_agg (hR0 : Matmul0) : W3 m ρ c (Proc.devRef .tc main_v39) = Cert.Spec.agg (Cert.Spec.proj1 (W0 m ρ c (Proc.devRef .tc main_arg0)) (W0 m ρ c (Proc.devRef .tc main_arg3))) (Cert.Spec.srcOf (W0 m ρ c (Proc.devRef .tc main_arg1))) (Cert.Spec.dstOf (W0 m ρ c (Proc.devRef .tc main_arg1))) := by
  refine (h1_agg (W2 m ρ c)).trans ?_
  rw [b2_h m ρ c hR0, b2_src, b2_dst]
theorem b3_col : W3 m ρ c (Proc.devRef .tc main_v41) = Cert.Spec.selfCol (Cert.Spec.dstOf (W0 m ρ c (Proc.devRef .tc main_arg1))) := by
  refine (h1_col (W2 m ρ c)).trans ?_
  rw [b2_dst]
theorem b3_row : W3 m ρ c (Proc.devRef .tc main_v42) = Cert.Spec.biasRow (W0 m ρ c (Proc.devRef .tc main_arg4)) := by
  refine (h1_row (W2 m ρ c)).trans ?_
  rw [b2_arg4]
theorem b3_h (hR0 : Matmul0) : W3 m ρ c (Proc.devRef .tc main_v4) = Cert.Spec.proj1 (W0 m ρ c (Proc.devRef .tc main_arg0)) (W0 m ρ c (Proc.devRef .tc main_arg3)) :=
  (h1_v4 (W2 m ρ c)).trans (b2_h m ρ c hR0)
theorem b3_src : W3 m ρ c (Proc.devRef .tc main_v1) = Cert.Spec.srcOf (W0 m ρ c (Proc.devRef .tc main_arg1)) := (h1_v1 (W2 m ρ c)).trans (b2_src m ρ c)
theorem b3_dst : W3 m ρ c (Proc.devRef .tc main_v3) = Cert.Spec.dstOf (W0 m ρ c (Proc.devRef .tc main_arg1)) := (h1_v3 (W2 m ρ c)).trans (b2_dst m ρ c)
theorem b3_arg2 : W3 m ρ c (Proc.devRef .tc main_arg2) = (W0 m ρ c (Proc.devRef .tc main_arg2)) := (h1_arg2 (W2 m ρ c)).trans (b2_arg2 m ρ c)
theorem b3_arg5 : W3 m ρ c (Proc.devRef .tc main_arg5) = (W0 m ρ c (Proc.devRef .tc main_arg5)) := (h1_arg5 (W2 m ρ c)).trans (b2_arg5 m ρ c)
theorem b3_arg6 : W3 m ρ c (Proc.devRef .tc main_arg6) = (W0 m ρ c (Proc.devRef .tc main_arg6)) := (h1_arg6 (W2 m ρ c)).trans (b2_arg6 m ρ c)
theorem b3_arg7 : W3 m ρ c (Proc.devRef .tc main_arg7) = (W0 m ρ c (Proc.devRef .tc main_arg7)) := (h1_arg7 (W2 m ρ c)).trans (b2_arg7 m ρ c)
theorem b3_arg8 : W3 m ρ c (Proc.devRef .tc main_arg8) = (W0 m ρ c (Proc.devRef .tc main_arg8)) := (h1_arg8 (W2 m ρ c)).trans (b2_arg8 m ρ c)

/-! ## After region 1 -/

/-- The first layer's output. -/
abbrev L1 : FVec Ideal Cert.ReferenceIdeal.S100000x64 .f32 :=
  Cert.Spec.layer (Cert.Spec.proj1 (W0 m ρ c (Proc.devRef .tc main_arg0)) (W0 m ρ c (Proc.devRef .tc main_arg3))) (Cert.Spec.srcOf (W0 m ρ c (Proc.devRef .tc main_arg1))) (Cert.Spec.dstOf (W0 m ρ c (Proc.devRef .tc main_arg1))) (W0 m ρ c (Proc.devRef .tc main_arg4))

theorem b4_y (hR0 : Matmul0) (hR1 : Combine1) : W4 m ρ c (Proc.devRef .tc main_v43) = L1 m ρ c := by
  refine (W4_arr m ρ c 4).trans ((hR1 (V3 m ρ) c).trans ?_)
  show Cert.Spec.combine (W3 m ρ c (Proc.devRef .tc main_v39)) (W3 m ρ c (Proc.devRef .tc main_v4)) (W3 m ρ c (Proc.devRef .tc main_v41)) (W3 m ρ c (Proc.devRef .tc main_v42)) = _
  rw [b3_agg m ρ c hR0, b3_h m ρ c hR0, b3_col, b3_row]
  rfl
theorem b4_src : W4 m ρ c (Proc.devRef .tc main_v1) = Cert.Spec.srcOf (W0 m ρ c (Proc.devRef .tc main_arg1)) := (W4_of_ne m ρ c main_v1 (by decide)).trans (b3_src m ρ c)
theorem b4_dst : W4 m ρ c (Proc.devRef .tc main_v3) = Cert.Spec.dstOf (W0 m ρ c (Proc.devRef .tc main_arg1)) := (W4_of_ne m ρ c main_v3 (by decide)).trans (b3_dst m ρ c)
theorem b4_arg2 : W4 m ρ c (Proc.devRef .tc main_arg2) = (W0 m ρ c (Proc.devRef .tc main_arg2)) := (W4_of_ne m ρ c main_arg2 (by decide)).trans (b3_arg2 m ρ c)
theorem b4_arg5 : W4 m ρ c (Proc.devRef .tc main_arg5) = (W0 m ρ c (Proc.devRef .tc main_arg5)) := (W4_of_ne m ρ c main_arg5 (by decide)).trans (b3_arg5 m ρ c)
theorem b4_arg6 : W4 m ρ c (Proc.devRef .tc main_arg6) = (W0 m ρ c (Proc.devRef .tc main_arg6)) := (W4_of_ne m ρ c main_arg6 (by decide)).trans (b3_arg6 m ρ c)
theorem b4_arg7 : W4 m ρ c (Proc.devRef .tc main_arg7) = (W0 m ρ c (Proc.devRef .tc main_arg7)) := (W4_of_ne m ρ c main_arg7 (by decide)).trans (b3_arg7 m ρ c)
theorem b4_arg8 : W4 m ρ c (Proc.devRef .tc main_arg8) = (W0 m ρ c (Proc.devRef .tc main_arg8)) := (W4_of_ne m ρ c main_arg8 (by decide)).trans (b3_arg8 m ρ c)

/-! ## After region 2 -/

theorem b5_h (hR0 : Matmul0) (hR1 : Combine1) (hR2 : Matmul2) : W5 m ρ c (Proc.devRef .tc main_v44) = Cert.Spec.proj2 (L1 m ρ c) (W0 m ρ c (Proc.devRef .tc main_arg5)) := by
  refine (W5_arr m ρ c 2).trans ((hR2 (V4 m ρ) c).trans ?_)
  show Cert.Spec.proj2 (W4 m ρ c (Proc.devRef .tc main_v43)) (W4 m ρ c (Proc.devRef .tc main_arg5)) = _
  rw [b4_y m ρ c hR0 hR1, b4_arg5]
theorem b5_src : W5 m ρ c (Proc.devRef .tc main_v1) = Cert.Spec.srcOf (W0 m ρ c (Proc.devRef .tc main_arg1)) := (W5_of_ne m ρ c main_v1 (by decide)).trans (b4_src m ρ c)
theorem b5_dst : W5 m ρ c (Proc.devRef .tc main_v3) = Cert.Spec.dstOf (W0 m ρ c (Proc.devRef .tc main_arg1)) := (W5_of_ne m ρ c main_v3 (by decide)).trans (b4_dst m ρ c)
theorem b5_arg2 : W5 m ρ c (Proc.devRef .tc main_arg2) = (W0 m ρ c (Proc.devRef .tc main_arg2)) := (W5_of_ne m ρ c main_arg2 (by decide)).trans (b4_arg2 m ρ c)
theorem b5_arg6 : W5 m ρ c (Proc.devRef .tc main_arg6) = (W0 m ρ c (Proc.devRef .tc main_arg6)) := (W5_of_ne m ρ c main_arg6 (by decide)).trans (b4_arg6 m ρ c)
theorem b5_arg7 : W5 m ρ c (Proc.devRef .tc main_arg7) = (W0 m ρ c (Proc.devRef .tc main_arg7)) := (W5_of_ne m ρ c main_arg7 (by decide)).trans (b4_arg7 m ρ c)
theorem b5_arg8 : W5 m ρ c (Proc.devRef .tc main_arg8) = (W0 m ρ c (Proc.devRef .tc main_arg8)) := (W5_of_ne m ρ c main_arg8 (by decide)).trans (b4_arg8 m ρ c)

/-! ## Entering region 3 -/

theorem b6_agg (hR0 : Matmul0) (hR1 : Combine1) (hR2 : Matmul2) : W6 m ρ c (Proc.devRef .tc main_v79)
    = Cert.Spec.agg (Cert.Spec.proj2 (L1 m ρ c) (W0 m ρ c (Proc.devRef .tc main_arg5))) (Cert.Spec.srcOf (W0 m ρ c (Proc.devRef .tc main_arg1))) (Cert.Spec.dstOf (W0 m ρ c (Proc.devRef .tc main_arg1))) := by
  refine (h3_agg (W5 m ρ c)).trans ?_
  rw [b5_h m ρ c hR0 hR1 hR2, b5_src, b5_dst]
theorem b6_col : W6 m ρ c (Proc.devRef .tc main_v81) = Cert.Spec.selfCol (Cert.Spec.dstOf (W0 m ρ c (Proc.devRef .tc main_arg1))) := by
  refine (h3_col (W5 m ρ c)).trans ?_
  rw [b5_dst]
theorem b6_row : W6 m ρ c (Proc.devRef .tc main_v82) = Cert.Spec.biasRow (W0 m ρ c (Proc.devRef .tc main_arg6)) := by
  refine (h3_row (W5 m ρ c)).trans ?_
  rw [b5_arg6]
theorem b6_h (hR0 : Matmul0) (hR1 : Combine1) (hR2 : Matmul2) : W6 m ρ c (Proc.devRef .tc main_v44) = Cert.Spec.proj2 (L1 m ρ c) (W0 m ρ c (Proc.devRef .tc main_arg5)) :=
  (h3_v44 (W5 m ρ c)).trans (b5_h m ρ c hR0 hR1 hR2)
theorem b6_arg2 : W6 m ρ c (Proc.devRef .tc main_arg2) = (W0 m ρ c (Proc.devRef .tc main_arg2)) := (h3_arg2 (W5 m ρ c)).trans (b5_arg2 m ρ c)
theorem b6_arg7 : W6 m ρ c (Proc.devRef .tc main_arg7) = (W0 m ρ c (Proc.devRef .tc main_arg7)) := (h3_arg7 (W5 m ρ c)).trans (b5_arg7 m ρ c)
theorem b6_arg8 : W6 m ρ c (Proc.devRef .tc main_arg8) = (W0 m ρ c (Proc.devRef .tc main_arg8)) := (h3_arg8 (W5 m ρ c)).trans (b5_arg8 m ρ c)

/-! ## After region 3 -/

/-- The second layer's output. -/
abbrev L2 : FVec Ideal Cert.ReferenceIdeal.S100000x64 .f32 :=
  Cert.Spec.layer (Cert.Spec.proj2 (L1 m ρ c) (W0 m ρ c (Proc.devRef .tc main_arg5))) (Cert.Spec.srcOf (W0 m ρ c (Proc.devRef .tc main_arg1))) (Cert.Spec.dstOf (W0 m ρ c (Proc.devRef .tc main_arg1))) (W0 m ρ c (Proc.devRef .tc main_arg6))

theorem b7_y (hR0 : Matmul0) (hR1 : Combine1) (hR2 : Matmul2) (hR3 : Combine3) : W7 m ρ c (Proc.devRef .tc main_v83) = L2 m ρ c := by
  refine (W7_arr m ρ c 4).trans ((hR3 (V6 m ρ) c).trans ?_)
  show Cert.Spec.combine (W6 m ρ c (Proc.devRef .tc main_v79)) (W6 m ρ c (Proc.devRef .tc main_v44)) (W6 m ρ c (Proc.devRef .tc main_v81)) (W6 m ρ c (Proc.devRef .tc main_v82)) = _
  rw [b6_agg m ρ c hR0 hR1 hR2, b6_h m ρ c hR0 hR1 hR2, b6_col, b6_row]
  rfl
theorem b7_arg2 : W7 m ρ c (Proc.devRef .tc main_arg2) = (W0 m ρ c (Proc.devRef .tc main_arg2)) := (W7_of_ne m ρ c main_arg2 (by decide)).trans (b6_arg2 m ρ c)
theorem b7_arg7 : W7 m ρ c (Proc.devRef .tc main_arg7) = (W0 m ρ c (Proc.devRef .tc main_arg7)) := (W7_of_ne m ρ c main_arg7 (by decide)).trans (b6_arg7 m ρ c)
theorem b7_arg8 : W7 m ρ c (Proc.devRef .tc main_arg8) = (W0 m ρ c (Proc.devRef .tc main_arg8)) := (W7_of_ne m ρ c main_arg8 (by decide)).trans (b6_arg8 m ρ c)

/-! ## Entering region 4, and the result -/

theorem b8_pool (hR0 : Matmul0) (hR1 : Combine1) (hR2 : Matmul2) (hR3 : Combine3) : W8 m ρ c (Proc.devRef .tc main_v95) = Cert.Spec.pool (L2 m ρ c) (W0 m ρ c (Proc.devRef .tc main_arg2)) := by
  refine (h4_pool (W7 m ρ c)).trans ?_
  rw [b7_y m ρ c hR0 hR1 hR2 hR3, b7_arg2]
theorem b8_row : W8 m ρ c (Proc.devRef .tc main_v96) = Cert.Spec.headRow (W0 m ρ c (Proc.devRef .tc main_arg8)) := by
  refine (h4_row (W7 m ρ c)).trans ?_
  rw [b7_arg8]
theorem b8_w : W8 m ρ c (Proc.devRef .tc main_arg7) = (W0 m ρ c (Proc.devRef .tc main_arg7)) := (h4_arg7 (W7 m ρ c)).trans (b7_arg7 m ρ c)

/-- At the last boundary the result buffer holds the network of the launch contents. -/
theorem result (hR0 : Matmul0) (hR1 : Combine1) (hR2 : Matmul2) (hR3 : Combine3) (hR4 : Head4) : W9 m ρ c (Proc.devRef .tc main_v97)
    = Cert.Spec.model (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) := by
  refine (W9_arr m ρ c 3).trans ((hR4 (V8 m ρ) c).trans ?_)
  show Cert.Spec.head (W8 m ρ c (Proc.devRef .tc main_v95)) (W8 m ρ c (Proc.devRef .tc main_arg7)) (W8 m ρ c (Proc.devRef .tc main_v96)) = _
  rw [b8_pool m ρ c hR0 hR1 hR2 hR3, b8_w, b8_row]
  rfl

end Cert.KernelIdeal.FoldEval

end
-- ==== Proof.RefArgs.lean ====
/-
  No operation of the idealized reference writes an argument buffer: after the whole fold each argument holds what the
  fold started from.
-/
import proofs.«140760_j48129403519136_1_alg».proof.Proof.RefFold
import Idealize.ShloMosaic.Lib.StableHlo.Run
import Idealize.ShloMosaic.PureOps.Ideal

noncomputable section

namespace Cert.ReferenceIdeal.Eval

open Cert.ReferenceIdeal Cert.ReferenceIdeal.Gen Cert.ReferenceIdeal.Fold Idealize.ShloMosaic Idealize.ShloMosaic.StableHlo

variable (V : Valuation τ sig (Elt Ideal))

set_option maxRecDepth 8192 in
set_option maxHeartbeats 8000000 in
theorem kept_arg0 : after (ops (F := Ideal)) V (Proc.devRef .tc main_arg0) = V (Proc.devRef .tc main_arg0) := by
  after_results_simp
set_option maxRecDepth 8192 in
set_option maxHeartbeats 8000000 in
theorem kept_arg1 : after (ops (F := Ideal)) V (Proc.devRef .tc main_arg1) = V (Proc.devRef .tc main_arg1) := by
  after_results_simp
set_option maxRecDepth 8192 in
set_option maxHeartbeats 8000000 in
theorem kept_arg2 : after (ops (F := Ideal)) V (Proc.devRef .tc main_arg2) = V (Proc.devRef .tc main_arg2) := by
  after_results_simp
set_option maxRecDepth 8192 in
set_option maxHeartbeats 8000000 in
theorem kept_arg3 : after (ops (F := Ideal)) V (Proc.devRef .tc main_arg3) = V (Proc.devRef .tc main_arg3) := by
  after_results_simp
set_option maxRecDepth 8192 in
set_option maxHeartbeats 8000000 in
theorem kept_arg4 : after (ops (F := Ideal)) V (Proc.devRef .tc main_arg4) = V (Proc.devRef .tc main_arg4) := by
  after_results_simp
set_option maxRecDepth 8192 in
set_option maxHeartbeats 8000000 in
theorem kept_arg5 : after (ops (F := Ideal)) V (Proc.devRef .tc main_arg5) = V (Proc.devRef .tc main_arg5) := by
  after_results_simp
set_option maxRecDepth 8192 in
set_option maxHeartbeats 8000000 in
theorem kept_arg6 : after (ops (F := Ideal)) V (Proc.devRef .tc main_arg6) = V (Proc.devRef .tc main_arg6) := by
  after_results_simp
set_option maxRecDepth 8192 in
set_option maxHeartbeats 8000000 in
theorem kept_arg7 : after (ops (F := Ideal)) V (Proc.devRef .tc main_arg7) = V (Proc.devRef .tc main_arg7) := by
  after_results_simp
set_option maxRecDepth 8192 in
set_option maxHeartbeats 8000000 in
theorem kept_arg8 : after (ops (F := Ideal)) V (Proc.devRef .tc main_arg8) = V (Proc.devRef .tc main_arg8) := by
  after_results_simp

end Cert.ReferenceIdeal.Eval

end
-- ==== Proof.RefChunks.lean ====
/-
  The idealized reference's 153 host operations are seven consecutive stretches, and the fold over the whole list is
  the seven folds in turn.
-/
import proofs.«140760_j48129403519136_1_alg».proof.Proof.RefFold
import proofs.«140760_j48129403519136_1_alg».proof.Proof.RefParts
import Idealize.ShloMosaic.Lib.StableHlo.Run
import Idealize.ShloMosaic.PureOps.Ideal

noncomputable section

namespace Cert.ReferenceIdeal.Eval

open Cert.ReferenceIdeal Cert.ReferenceIdeal.Gen Cert.ReferenceIdeal.Fold Cert.ReferenceIdeal.Parts Idealize.ShloMosaic Idealize.ShloMosaic.StableHlo

/-- The fold over a concatenation is the fold over the second part from the fold over the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

set_option maxRecDepth 8192 in
/-- The operation list is its seven parts in order. -/
theorem ops_eq : (ops (F := Ideal)) = ops1 (F := Ideal) ++ (ops2a (F := Ideal) ++ (ops2b (F := Ideal) ++ (ops3a (F := Ideal)
    ++ (ops3b (F := Ideal) ++ (ops4a (F := Ideal) ++ ops4b (F := Ideal)))))) := rfl

theorem ops_fold (V : Valuation τ sig (Elt Ideal)) :
    after (ops (F := Ideal)) V = after (ops4b (F := Ideal)) (after (ops4a (F := Ideal)) (after (ops3b (F := Ideal)) (after (ops3a (F := Ideal))
      (after (ops2b (F := Ideal)) (after (ops2a (F := Ideal)) (after (ops1 (F := Ideal)) V)))))) := by
  rw [ops_eq, after_append, after_append, after_append, after_append, after_append, after_append]

end Cert.ReferenceIdeal.Eval

end
-- ==== Proof.RefLayer.lean ====
/-
  A layer before its rectifier: (agg h + h · dinv²) + b on whole arrays; the layer is its positive part.
-/
import proofs.«140760_j48129403519136_1_alg».proof.Proof.ModelSpec
import Idealize.ShloMosaic.Lib.StableHlo.Run
import Idealize.ShloMosaic.PureOps.Ideal

noncomputable section

namespace Cert.ReferenceIdeal.Eval

open Cert.ReferenceIdeal Cert.ReferenceIdeal.Gen Idealize.ShloMosaic

/-- (agg h + h · dinv²) + b. -/
def layerPre (h : FVec Ideal S100000x64 .f32) (s d : IVec S1600000 32) (b : FVec Ideal S64 .f32) : FVec Ideal S100000x64 .f32 :=
  addf (F := Ideal)
    (addf (F := Ideal) (Cert.Spec.agg h s d)
      (mulf (F := Ideal) h (broadcastInDim S100000x64 ![0, 1] Gen.bcast_S100000x1_S100000x64_0_1 (Cert.Spec.selfCol d))))
    (broadcastInDim S100000x64 ![0, 1] Gen.bcast_S1x64_S100000x64_0_1 (Cert.Spec.biasRow b))

/-- The layer is the positive part of that. -/
theorem layer_eq (h : FVec Ideal S100000x64 .f32) (s d : IVec S1600000 32) (b : FVec Ideal S64 .f32) :
    maximumf (F := Ideal) (layerPre h s d b) (broadcastInDim S100000x64 ![] Gen.bcast_S_S100000x64 (constant (F := Ideal) S_ .f32 0x00000000#32)) = Cert.Spec.layer h s d b := rfl

end Cert.ReferenceIdeal.Eval

end
-- ==== Proof.RefEvalA.lean ====
/-
  The reference's stretches through the first layer, read at the buffers the later ones take, from ANY buffer
  contents A: the edge list's rows, the first matrix product, the first layer before and after its rectifier; what a
  stretch does not write is kept.
-/
import proofs.«140760_j48129403519136_1_alg».proof.Proof.RefParts
import proofs.«140760_j48129403519136_1_alg».proof.Proof.ModelSpec
import proofs.«140760_j48129403519136_1_alg».proof.Proof.RefLayer
import Idealize.ShloMosaic.Lib.StableHlo.Run
import Idealize.ShloMosaic.PureOps.Ideal

noncomputable section

namespace Cert.ReferenceIdeal.Eval

open Cert.ReferenceIdeal Cert.ReferenceIdeal.Gen Cert.ReferenceIdeal.Parts Idealize.ShloMosaic Idealize.ShloMosaic.StableHlo

variable (A : Valuation τ sig (Elt Ideal))

/-! ## The edge list's rows and the first product -/

theorem e1_h : after (ops1 (F := Ideal)) A (Proc.devRef .tc main_v4) = Cert.Spec.proj1 (A (Proc.devRef .tc main_arg0)) (A (Proc.devRef .tc main_arg3)) := by
  after_results_simp
  rfl
theorem e1_src : after (ops1 (F := Ideal)) A (Proc.devRef .tc main_v1) = Cert.Spec.srcOf (A (Proc.devRef .tc main_arg1)) := by
  after_results_simp
  unfold Cert.Spec.srcOf
  rfl
theorem e1_dst : after (ops1 (F := Ideal)) A (Proc.devRef .tc main_v3) = Cert.Spec.dstOf (A (Proc.devRef .tc main_arg1)) := by
  after_results_simp
  unfold Cert.Spec.dstOf
  rfl
theorem e1_arg2 : after (ops1 (F := Ideal)) A (Proc.devRef .tc main_arg2) = A (Proc.devRef .tc main_arg2) := by after_results_simp
theorem e1_arg4 : after (ops1 (F := Ideal)) A (Proc.devRef .tc main_arg4) = A (Proc.devRef .tc main_arg4) := by after_results_simp
theorem e1_arg5 : after (ops1 (F := Ideal)) A (Proc.devRef .tc main_arg5) = A (Proc.devRef .tc main_arg5) := by after_results_simp
theorem e1_arg6 : after (ops1 (F := Ideal)) A (Proc.devRef .tc main_arg6) = A (Proc.devRef .tc main_arg6) := by after_results_simp
theorem e1_arg7 : after (ops1 (F := Ideal)) A (Proc.devRef .tc main_arg7) = A (Proc.devRef .tc main_arg7) := by after_results_simp
theorem e1_arg8 : after (ops1 (F := Ideal)) A (Proc.devRef .tc main_arg8) = A (Proc.devRef .tc main_arg8) := by after_results_simp

/-! ## The first layer -/

set_option maxHeartbeats 4000000 in
theorem e2a : after (ops2a (F := Ideal)) A (Proc.devRef .tc main_v47)
    = layerPre (A (Proc.devRef .tc main_v4)) (A (Proc.devRef .tc main_v1)) (A (Proc.devRef .tc main_v3)) (A (Proc.devRef .tc main_arg4)) := by
  after_results_simp
  unfold layerPre Cert.Spec.agg Cert.Spec.selfCol Cert.Spec.biasRow Cert.Spec.edgeW Cert.Spec.dinv Cert.Spec.col Cert.Spec.wrap
  rfl
theorem e2a_v1 : after (ops2a (F := Ideal)) A (Proc.devRef .tc main_v1) = A (Proc.devRef .tc main_v1) := by after_results_simp
theorem e2a_v3 : after (ops2a (F := Ideal)) A (Proc.devRef .tc main_v3) = A (Proc.devRef .tc main_v3) := by after_results_simp
theorem e2a_arg2 : after (ops2a (F := Ideal)) A (Proc.devRef .tc main_arg2) = A (Proc.devRef .tc main_arg2) := by after_results_simp
theorem e2a_arg5 : after (ops2a (F := Ideal)) A (Proc.devRef .tc main_arg5) = A (Proc.devRef .tc main_arg5) := by after_results_simp
theorem e2a_arg6 : after (ops2a (F := Ideal)) A (Proc.devRef .tc main_arg6) = A (Proc.devRef .tc main_arg6) := by after_results_simp
theorem e2a_arg7 : after (ops2a (F := Ideal)) A (Proc.devRef .tc main_arg7) = A (Proc.devRef .tc main_arg7) := by after_results_simp
theorem e2a_arg8 : after (ops2a (F := Ideal)) A (Proc.devRef .tc main_arg8) = A (Proc.devRef .tc main_arg8) := by after_results_simp

theorem e2b : after (ops2b (F := Ideal)) A (Proc.devRef .tc main_v48) = maximumf (F := Ideal) (A (Proc.devRef .tc main_v47)) (broadcastInDim S100000x64 ![] Gen.bcast_S_S100000x64 (constant (F := Ideal) S_ .f32 0x00000000#32)) := by
  after_results_simp
  rfl
theorem e2b_v1 : after (ops2b (F := Ideal)) A (Proc.devRef .tc main_v1) = A (Proc.devRef .tc main_v1) := by after_results_simp
theorem e2b_v3 : after (ops2b (F := Ideal)) A (Proc.devRef .tc main_v3) = A (Proc.devRef .tc main_v3) := by after_results_simp
theorem e2b_arg2 : after (ops2b (F := Ideal)) A (Proc.devRef .tc main_arg2) = A (Proc.devRef .tc main_arg2) := by after_results_simp
theorem e2b_arg5 : after (ops2b (F := Ideal)) A (Proc.devRef .tc main_arg5) = A (Proc.devRef .tc main_arg5) := by after_results_simp
theorem e2b_arg6 : after (ops2b (F := Ideal)) A (Proc.devRef .tc main_arg6) = A (Proc.devRef .tc main_arg6) := by after_results_simp
theorem e2b_arg7 : after (ops2b (F := Ideal)) A (Proc.devRef .tc main_arg7) = A (Proc.devRef .tc main_arg7) := by after_results_simp
theorem e2b_arg8 : after (ops2b (F := Ideal)) A (Proc.devRef .tc main_arg8) = A (Proc.devRef .tc main_arg8) := by after_results_simp

end Cert.ReferenceIdeal.Eval

end
-- ==== Proof.RefEvalB.lean ====
/-
  The reference's later stretches read from ANY buffer contents A: the second matrix product and layer before and
  after its rectifier, pooling with the last product and bias, and the row-wise log-softmax; what a stretch does not
  write is kept.
-/
import proofs.«140760_j48129403519136_1_alg».proof.Proof.RefParts
import proofs.«140760_j48129403519136_1_alg».proof.Proof.ModelSpec
import proofs.«140760_j48129403519136_1_alg».proof.Proof.RefLayer
import Idealize.ShloMosaic.Lib.StableHlo.Run
import Idealize.ShloMosaic.PureOps.Ideal

noncomputable section

namespace Cert.ReferenceIdeal.Eval

open Cert.ReferenceIdeal Cert.ReferenceIdeal.Gen Cert.ReferenceIdeal.Parts Idealize.ShloMosaic Idealize.ShloMosaic.StableHlo

variable (A : Valuation τ sig (Elt Ideal))

/-! ## The second layer -/

set_option maxHeartbeats 4000000 in
theorem e3a : after (ops3a (F := Ideal)) A (Proc.devRef .tc main_v92)
    = layerPre (Cert.Spec.proj2 (A (Proc.devRef .tc main_v48)) (A (Proc.devRef .tc main_arg5))) (A (Proc.devRef .tc main_v1)) (A (Proc.devRef .tc main_v3)) (A (Proc.devRef .tc main_arg6)) := by
  after_results_simp
  unfold layerPre Cert.Spec.agg Cert.Spec.selfCol Cert.Spec.biasRow Cert.Spec.edgeW Cert.Spec.dinv Cert.Spec.col Cert.Spec.wrap Cert.Spec.proj2
  rfl
theorem e3a_arg2 : after (ops3a (F := Ideal)) A (Proc.devRef .tc main_arg2) = A (Proc.devRef .tc main_arg2) := by after_results_simp
theorem e3a_arg7 : after (ops3a (F := Ideal)) A (Proc.devRef .tc main_arg7) = A (Proc.devRef .tc main_arg7) := by after_results_simp
theorem e3a_arg8 : after (ops3a (F := Ideal)) A (Proc.devRef .tc main_arg8) = A (Proc.devRef .tc main_arg8) := by after_results_simp

theorem e3b : after (ops3b (F := Ideal)) A (Proc.devRef .tc main_v93) = maximumf (F := Ideal) (A (Proc.devRef .tc main_v92)) (broadcastInDim S100000x64 ![] Gen.bcast_S_S100000x64 (constant (F := Ideal) S_ .f32 0x00000000#32)) := by
  after_results_simp
  rfl
theorem e3b_arg2 : after (ops3b (F := Ideal)) A (Proc.devRef .tc main_arg2) = A (Proc.devRef .tc main_arg2) := by after_results_simp
theorem e3b_arg7 : after (ops3b (F := Ideal)) A (Proc.devRef .tc main_arg7) = A (Proc.devRef .tc main_arg7) := by after_results_simp
theorem e3b_arg8 : after (ops3b (F := Ideal)) A (Proc.devRef .tc main_arg8) = A (Proc.devRef .tc main_arg8) := by after_results_simp

/-! ## Pooling, the last product, the log-softmax -/

set_option maxHeartbeats 2000000 in
theorem e4a : after (ops4a (F := Ideal)) A (Proc.devRef .tc main_v109)
    = addf (F := Ideal)
        (Host.dotGeneral (F := Ideal) (φ₁ := .f32) (φ₂ := .f32) dot_S100000x64_S64x16_S100000x16_1_0_0_1_n_n none
          (Cert.Spec.pool (A (Proc.devRef .tc main_v93)) (A (Proc.devRef .tc main_arg2))) (A (Proc.devRef .tc main_arg7)))
        (broadcastInDim S100000x16 ![0, 1] Gen.bcast_S1x16_S100000x16_0_1 (Cert.Spec.headRow (A (Proc.devRef .tc main_arg8)))) := by
  after_results_simp
  unfold Cert.Spec.pool Cert.Spec.headRow
  rfl

/-- Contents moved to a buffer's own type and back are the contents. -/
theorem ofBuf_toBuf {T : BufTy} (x : TRef sig T) (v : T.Contents (Elt Ideal)) : x.ofBuf (x.toBuf v) = v := by
  obtain ⟨r, h, hd, hu⟩ := x
  subst h
  rfl

set_option maxHeartbeats 2000000 in
theorem e4b : after (ops4b (F := Ideal)) A (Proc.devRef .tc main_v110) = Cert.Spec.logSoftmax (A (Proc.devRef .tc main_v109)) := by
  after_results_simp
  simp only [ofBuf_toBuf]
  unfold Cert.Spec.logSoftmax Cert.Spec.shifted Cert.Spec.rowMax
  rfl

end Cert.ReferenceIdeal.Eval

end
-- ==== Proof.RefEval.lean ====
/-
  The idealized reference's fold, stretch after stretch: its result buffer is the network `Cert.Spec.model` of the
  contents the fold starts from.
-/
import proofs.«140760_j48129403519136_1_alg».proof.Proof.RefChunks
import proofs.«140760_j48129403519136_1_alg».proof.Proof.RefEvalA
import proofs.«140760_j48129403519136_1_alg».proof.Proof.RefEvalB
import proofs.«140760_j48129403519136_1_alg».proof.Proof.RefLayer
import proofs.«140760_j48129403519136_1_alg».proof.Proof.ModelSpec
import Idealize.ShloMosaic.Lib.StableHlo.Run
import Idealize.ShloMosaic.PureOps.Ideal

noncomputable section

namespace Cert.ReferenceIdeal.Eval

open Cert.ReferenceIdeal Cert.ReferenceIdeal.Gen Cert.ReferenceIdeal.Fold Cert.ReferenceIdeal.Parts Idealize.ShloMosaic Idealize.ShloMosaic.StableHlo

/-- The reference's result buffer after its fold is the network of the contents the fold starts from. -/
theorem result (V : Valuation τ sig (Elt Ideal)) :
    after (ops (F := Ideal)) V (Proc.devRef .tc main_v110)
      = Cert.Spec.model (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  rw [ops_fold V, e4b, e4a,
    e3b, e3b_arg2, e3b_arg7, e3b_arg8,
    e3a, e3a_arg2, e3a_arg7, e3a_arg8,
    e2b, e2b_v1, e2b_v3, e2b_arg2, e2b_arg5, e2b_arg6, e2b_arg7, e2b_arg8,
    e2a, e2a_v1, e2a_v3, e2a_arg2, e2a_arg5, e2a_arg6, e2a_arg7, e2a_arg8,
    e1_h, e1_src, e1_dst, e1_arg2, e1_arg4, e1_arg5, e1_arg6, e1_arg7, e1_arg8,
    layer_eq, layer_eq]
  rfl

end Cert.ReferenceIdeal.Eval

end
-- ==== Proof.lean ====
/-
  A two-layer graph convolution network with mean pooling and a log-softmax classifier, computed by a program of
  five tiled kernels among host operations, against the same network written with host operations only.

  At the exact instance the two programs are ONE function of the argument arrays, `Cert.Spec.model`:
    h  = x · W1;            y1 = max ((agg h + h · dinv²) + b1, 0)
    h' = y1 · W2;           y2 = max ((agg h' + h' · dinv²) + b2, 0)
    p  = (scatter-sum of y2 over the groups) / max (count, 1)
    out = log-softmax (p · Wfc + bfc)   row by row,
  with agg the degree-normalised sum over in-edges.  The kernel side: each matrix-product region leaves, block by
  block of 10000 rows, the product of the bf16-narrowed operands into a zero accumulator, which at the exact instance
  is the host's product; each combine region leaves the same pointwise expression the reference applies to whole
  arrays; the last region leaves the row-wise log-softmax of its rows.  The host operations between the regions are
  the reference's own, and are carried as one term.  No law of arithmetic is used beyond reading both sides at an
  index, so finiteness of the inputs is not needed for the values; the precondition is only what the frames are
  stated under.  The idealization rewrote nothing, so its conjunct is `True`.
-/
import proofs.«140760_j48129403519136_1_alg».proof.Defs
import proofs.«140760_j48129403519136_1_alg».proof.Proof.Gen.Kernel
import proofs.«140760_j48129403519136_1_alg».proof.Proof.Gen.Kernel.Skeleton
import proofs.«140760_j48129403519136_1_alg».proof.Proof.Gen.Kernel.Launch
import proofs.«140760_j48129403519136_1_alg».proof.Proof.Gen.Kernel.Points
import proofs.«140760_j48129403519136_1_alg».proof.Proof.Gen.Kernel.Frame
import proofs.«140760_j48129403519136_1_alg».proof.Proof.Gen.KernelIdeal
import proofs.«140760_j48129403519136_1_alg».proof.Proof.Gen.KernelIdeal.Skeleton
import proofs.«140760_j48129403519136_1_alg».proof.Proof.Gen.KernelIdeal.Launch
import proofs.«140760_j48129403519136_1_alg».proof.Proof.Gen.KernelIdeal.Points
import proofs.«140760_j48129403519136_1_alg».proof.Proof.Gen.KernelIdeal.Frame
import proofs.«140760_j48129403519136_1_alg».proof.Proof.Gen.ReferenceIdeal
import proofs.«140760_j48129403519136_1_alg».proof.Proof.Gen.Pre_finite_inputs
import proofs.«140760_j48129403519136_1_alg».proof.Proof.ModelSpec
import proofs.«140760_j48129403519136_1_alg».proof.Proof.RegionClaims
import proofs.«140760_j48129403519136_1_alg».proof.Proof.RegionMatmul
import proofs.«140760_j48129403519136_1_alg».proof.Proof.RegionCombine
import proofs.«140760_j48129403519136_1_alg».proof.Proof.RegionLogSoftmax
import proofs.«140760_j48129403519136_1_alg».proof.Proof.KernelRun
import proofs.«140760_j48129403519136_1_alg».proof.Proof.KernelFold
import proofs.«140760_j48129403519136_1_alg».proof.Proof.RefFold
import proofs.«140760_j48129403519136_1_alg».proof.Proof.RefArgs
import proofs.«140760_j48129403519136_1_alg».proof.Proof.RefEval
import Idealize.ShloMosaic.Adequacy
import Idealize.ShloMosaic.Init

noncomputable section

namespace Cert.Proof

open Idealize.ShloMosaic Idealize.ShloMosaic.TcCoe Idealize.SL.Sem

/-! ## What the five regions leave -/

theorem region0 : Cert.KernelIdeal.RegionClaims.Matmul0 := fun V c => Cert.KernelIdeal.RegionMatmul.final0 V c
theorem region1 : Cert.KernelIdeal.RegionClaims.Combine1 := fun V c => Cert.KernelIdeal.RegionCombine.final1 V c
theorem region2 : Cert.KernelIdeal.RegionClaims.Matmul2 := fun V c => Cert.KernelIdeal.RegionMatmul.final2 V c
theorem region3 : Cert.KernelIdeal.RegionClaims.Combine3 := fun V c => Cert.KernelIdeal.RegionCombine.final3 V c
theorem region4 : Cert.KernelIdeal.RegionClaims.Head4 := fun V c => Cert.KernelIdeal.RegionLogSoftmax.final4 V c

/-! ## The frames -/

theorem frame_k : Cert.frame_Kernel := fun m ρ _ => Cert.Kernel.Gen.frame m ρ
theorem frame_ki : Cert.frame_KernelIdeal := fun m ρ _ => Cert.KernelIdeal.Gen.frame m ρ

/-- The reference runs to the fold of its operations, which writes no argument. -/
theorem frame_ri : Cert.frame_ReferenceIdeal := fun m ρ _ =>
  (θ_run Cert.ReferenceIdeal.defs _ _).mono (fun _ h c =>
      ⟨(h c _).trans (Cert.ReferenceIdeal.Eval.kept_arg0 _), (h c _).trans (Cert.ReferenceIdeal.Eval.kept_arg1 _),
       (h c _).trans (Cert.ReferenceIdeal.Eval.kept_arg2 _), (h c _).trans (Cert.ReferenceIdeal.Eval.kept_arg3 _),
       (h c _).trans (Cert.ReferenceIdeal.Eval.kept_arg4 _), (h c _).trans (Cert.ReferenceIdeal.Eval.kept_arg5 _),
       (h c _).trans (Cert.ReferenceIdeal.Eval.kept_arg6 _), (h c _).trans (Cert.ReferenceIdeal.Eval.kept_arg7 _),
       (h c _).trans (Cert.ReferenceIdeal.Eval.kept_arg8 _)⟩)
    (Cert.ReferenceIdeal.Fold.run_fold (F := Ideal) m ρ)

/-! ## The values -/

/-- Both programs end with the network of the argument arrays in their result buffer. -/
theorem algebraic : Cert.algebraic_KernelIdeal_ReferenceIdeal := by
  intro m ρ m' ρ' _ hagree
  refine ⟨fun c => Cert.Spec.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Named.run (F := Ideal) m ρ)
    exact Cert.KernelIdeal.FoldEval.result m ρ c region0 region1 region2 region3 region4
  · refine (θ_run Cert.ReferenceIdeal.defs _ _).mono (fun r h c =>
        ⟨(h c _).trans ?_,
         (h c _).trans (Cert.ReferenceIdeal.Eval.kept_arg0 _), (h c _).trans (Cert.ReferenceIdeal.Eval.kept_arg1 _),
         (h c _).trans (Cert.ReferenceIdeal.Eval.kept_arg2 _), (h c _).trans (Cert.ReferenceIdeal.Eval.kept_arg3 _),
         (h c _).trans (Cert.ReferenceIdeal.Eval.kept_arg4 _), (h c _).trans (Cert.ReferenceIdeal.Eval.kept_arg5 _),
         (h c _).trans (Cert.ReferenceIdeal.Eval.kept_arg6 _), (h c _).trans (Cert.ReferenceIdeal.Eval.kept_arg7 _),
         (h c _).trans (Cert.ReferenceIdeal.Eval.kept_arg8 _)⟩)
      (Cert.ReferenceIdeal.Fold.run_fold (F := Ideal) m' ρ')
    refine (Cert.ReferenceIdeal.Eval.result _).trans ?_
    obtain ⟨e0, e1, e2, e3, e4, e5, e6, e7, e8⟩ := hagree c
    have r0 : StableHlo.launchContents m' c (Proc.devRef .tc Cert.ReferenceIdeal.main_arg0) = m ((c.tc : Thread Cert.KernelIdeal.nD Cert.KernelIdeal.τ).loc Cert.KernelIdeal.main_arg0) := e0
    have r1 : StableHlo.launchContents m' c (Proc.devRef .tc Cert.ReferenceIdeal.main_arg1) = m ((c.tc : Thread Cert.KernelIdeal.nD Cert.KernelIdeal.τ).loc Cert.KernelIdeal.main_arg1) := e1
    have r2 : StableHlo.launchContents m' c (Proc.devRef .tc Cert.ReferenceIdeal.main_arg2) = m ((c.tc : Thread Cert.KernelIdeal.nD Cert.KernelIdeal.τ).loc Cert.KernelIdeal.main_arg2) := e2
    have r3 : StableHlo.launchContents m' c (Proc.devRef .tc Cert.ReferenceIdeal.main_arg3) = m ((c.tc : Thread Cert.KernelIdeal.nD Cert.KernelIdeal.τ).loc Cert.KernelIdeal.main_arg3) := e3
    have r4 : StableHlo.launchContents m' c (Proc.devRef .tc Cert.ReferenceIdeal.main_arg4) = m ((c.tc : Thread Cert.KernelIdeal.nD Cert.KernelIdeal.τ).loc Cert.KernelIdeal.main_arg4) := e4
    have r5 : StableHlo.launchContents m' c (Proc.devRef .tc Cert.ReferenceIdeal.main_arg5) = m ((c.tc : Thread Cert.KernelIdeal.nD Cert.KernelIdeal.τ).loc Cert.KernelIdeal.main_arg5) := e5
    have r6 : StableHlo.launchContents m' c (Proc.devRef .tc Cert.ReferenceIdeal.main_arg6) = m ((c.tc : Thread Cert.KernelIdeal.nD Cert.KernelIdeal.τ).loc Cert.KernelIdeal.main_arg6) := e6
    have r7 : StableHlo.launchContents m' c (Proc.devRef .tc Cert.ReferenceIdeal.main_arg7) = m ((c.tc : Thread Cert.KernelIdeal.nD Cert.KernelIdeal.τ).loc Cert.KernelIdeal.main_arg7) := e7
    have r8 : StableHlo.launchContents m' c (Proc.devRef .tc Cert.ReferenceIdeal.main_arg8) = m ((c.tc : Thread Cert.KernelIdeal.nD Cert.KernelIdeal.τ).loc Cert.KernelIdeal.main_arg8) := e8
    rw [r0, r1, r2, r3, r4, r5, r6, r7, r8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
